-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2x16x256 : Shape := ⟨4, ![16384, 2, 16, 256]⟩
abbrev S4x256x256 : Shape := ⟨3, ![4, 256, 256]⟩
abbrev S256 : Shape := ⟨1, ![256]⟩
abbrev S_ : Shape := ⟨0, ![]⟩

class Facts : Prop where
  bcast_S_S16384x2x16x256 : S_.BroadcastsInDim S16384x2x16x256 (![] : Fin 0 → Fin S16384x2x16x256.rank)
  reducesTo_S16384x2x16x256_S_d0_1_2_3 : S16384x2x16x256.ReducesTo [0, 1, 2, 3] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16384x2x16x256 .f32) (main_arg1 : FVec F S4x256x256 .f32) (main_arg2 : FVec F S4x256x256 .f32) (main_arg3 : FVec F S256 .f32) : IVec S_ 1 :=
  let main_v0 : FVec F S16384x2x16x256 .f32 := Host.absf main_arg0
  let main_cst : FVec F S_ .f32 := constant S_ .f32 0x7F800000#32
  let main_v1 : FVec F S16384x2x16x256 .f32 := broadcastInDim S16384x2x16x256 ![] bcast_S_S16384x2x16x256 main_cst
  let main_v2 : IVec S16384x2x16x256 1 := cmpf .olt main_v0 main_v1
  let main_c : IVec S_ 1 := constantI S_ 1 1#1
  let main_v3 : IVec S_ 1 := (fun x v => Host.reduce IntOp.andi x v reducesTo_S16384x2x16x256_S_d0_1_2_3 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S4x256x256 .f32 := Host.absf main_arg2
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16384x2x16x256 : Shape := ⟨4, ![16384, 2, 16, 256]⟩
abbrev S4x256x256 : Shape := ⟨3, ![4, 256, 256]⟩
abbrev S256 : Shape := ⟨1, ![256]⟩
abbrev S256x2x16x256 : Shape := ⟨4, ![256, 2, 16, 256]⟩
abbrev S1x256x256 : Shape := ⟨3, ![1, 256, 256]⟩
abbrev S256x256 : Shape := ⟨2, ![256, 256]⟩
abbrev S256x1x1x256 : Shape := ⟨4, ![256, 1, 1, 256]⟩
abbrev S1x256 : Shape := ⟨2, ![1, 256]⟩

abbrev nBuf : Space → Nat
  | .hbm => 5
  | .vmem => 7
  | .smem => 0
  | _ => 0

abbrev bufTy : (tb : Table) → Fin (tcTables nBuf tb) → BufTy
  | .hbm, ⟨0, _⟩ => ⟨S16384x2x16x256, .f32⟩
  | .hbm, ⟨1, _⟩ => ⟨S4x256x256, .f32⟩
  | .hbm, ⟨2, _⟩ => ⟨S4x256x256, .f32⟩
  | .hbm, ⟨3, _⟩ => ⟨S256, .f32⟩
  | .hbm, ⟨4, _⟩ => ⟨S16384x2x16x256, .f32⟩
  | .local _ .vmem, ⟨0, _⟩ => ⟨S256x2x16x256, .f32⟩
  | .local _ .vmem, ⟨1, _⟩ => ⟨S256x2x16x256, .f32⟩
  | .local _ .vmem, ⟨2, _⟩ => ⟨S4x256x256, .f32⟩
  | .local _ .vmem, ⟨3, _⟩ => ⟨S4x256x256, .f32⟩
  | .local _ .vmem, ⟨4, _⟩ => ⟨S256, .f32⟩
  | .local _ .vmem, ⟨5, _⟩ => ⟨S256x2x16x256, .f32⟩
  | .local _ .vmem, ⟨6, _⟩ => ⟨S256x2x16x256, .f32⟩
  | _, _ => ⟨S16384x2x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x2x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S256x2x16x256_S256x1x1x256_0_0_0_0 : ∀ a, (![0, 0, 0, 0] : Fin 4 → Nat) a + S256x1x1x256.size a ≤ S256x2x16x256.size a
  h_S256x1x1x256 : 0 < S256x1x1x256.numel
  shapeCasts_S256x1x1x256_S256x256 : S256x1x1x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  shapeCasts_S256x256_S256x1x1x256 : S256x256.ShapeCasts S256x1x1x256
  inb_S4x256x256_S1x256x256_1_0_0 : ∀ a, (![1, 0, 0] : Fin 3 → Nat) a + S1x256x256.size a ≤ S4x256x256.size a
  inb_S256x2x16x256_S256x1x1x256_0_0_1_0 : ∀ a, (![0, 0, 1, 0] : Fin 4 → Nat) a + S256x1x1x256.size a ≤ S256x2x16x256.size a
  inb_S256x2x16x256_S256x1x1x256_0_0_2_0 : ∀ a, (![0, 0, 2, 0] : Fin 4 → Nat) a + S256x1x1x256.size a ≤ S256x2x16x256.size a
  inb_S256x2x16x256_S256x1x1x256_0_0_3_0 : ∀ a, (![0, 0, 3, 0] : Fin 4 → Nat) a + S256x1x1x256.size a ≤ S256x2x16x256.size a
  inb_S4x256x256_S1x256x256_2_0_0 : ∀ a, (![2, 0, 0] : Fin 3 → Nat) a + S1x256x256.size a ≤ S4x256x256.size a
  inb_S256x2x16x256_S256x1x1x256_0_0_4_0 : ∀ a, (![0, 0, 4, 0] : Fin 4 → Nat) a + S256x1x1x256.size a ≤ S256x2x16x256.size a
  inb_S256x2x16x256_S256x1x1x256_0_0_5_0 : ∀ a, (![0, 0, 5, 0] : Fin 4 → Nat) a + S256x1x1x256.size a ≤ S256x2x16x256.size a
  inb_S256x2x16x256_S256x1x1x256_0_0_6_0 : ∀ a, (![0, 0, 6, 0] : Fin 4 → Nat) a + S256x1x1x256.size a ≤ S256x2x16x256.size a
  inb_S256x2x16x256_S256x1x1x256_0_0_7_0 : ∀ a, (![0, 0, 7, 0] : Fin 4 → Nat) a + S256x1x1x256.size a ≤ S256x2x16x256.size a
  inb_S256x2x16x256_S256x1x1x256_0_0_8_0 : ∀ a, (![0, 0, 8, 0] : Fin 4 → Nat) a + S256x1x1x256.size a ≤ S256x2x16x256.size a
  inb_S4x256x256_S1x256x256_3_0_0 : ∀ a, (![3, 0, 0] : Fin 3 → Nat) a + S1x256x256.size a ≤ S4x256x256.size a
  inb_S256x2x16x256_S256x1x1x256_0_0_9_0 : ∀ a, (![0, 0, 9, 0] : Fin 4 → Nat) a + S256x1x1x256.size a ≤ S256x2x16x256.size a
  inb_S256x2x16x256_S256x1x1x256_0_0_10_0 : ∀ a, (![0, 0, 10, 0] : Fin 4 → Nat) a + S256x1x1x256.size a ≤ S256x2x16x256.size a
  inb_S256x2x16x256_S256x1x1x256_0_0_11_0 : ∀ a, (![0, 0, 11, 0] : Fin 4 → Nat) a + S256x1x1x256.size a ≤ S256x2x16x256.size a
  inb_S256x2x16x256_S256x1x1x256_0_0_12_0 : ∀ a, (![0, 0, 12, 0] : Fin 4 → Nat) a + S256x1x1x256.size a ≤ S256x2x16x256.size a
  inb_S256x2x16x256_S256x1x1x256_0_0_13_0 : ∀ a, (![0, 0, 13, 0] : Fin 4 → Nat) a + S256x1x1x256.size a ≤ S256x2x16x256.size a
  inb_S256x2x16x256_S256x1x1x256_0_0_14_0 : ∀ a, (![0, 0, 14, 0] : Fin 4 → Nat) a + S256x1x1x256.size a ≤ S256x2x16x256.size a
  inb_S256x2x16x256_S256x1x1x256_0_0_15_0 : ∀ a, (![0, 0, 15, 0] : Fin 4 → Nat) a + S256x1x1x256.size a ≤ S256x2x16x256.size a
  inb_S256x2x16x256_S256x1x1x256_0_1_0_0 : ∀ a, (![0, 1, 0, 0] : Fin 4 → Nat) a + S256x1x1x256.size a ≤ S256x2x16x256.size a
  inb_S256x2x16x256_S256x1x1x256_0_1_1_0 : ∀ a, (![0, 1, 1, 0] : Fin 4 → Nat) a + S256x1x1x256.size a ≤ S256x2x16x256.size a
  inb_S256x2x16x256_S256x1x1x256_0_1_2_0 : ∀ a, (![0, 1, 2, 0] : Fin 4 → Nat) a + S256x1x1x256.size a ≤ S256x2x16x256.size a
  inb_S256x2x16x256_S256x1x1x256_0_1_3_0 : ∀ a, (![0, 1, 3, 0] : Fin 4 → Nat) a + S256x1x1x256.size a ≤ S256x2x16x256.size a
  inb_S256x2x16x256_S256x1x1x256_0_1_4_0 : ∀ a, (![0, 1, 4, 0] : Fin 4 → Nat) a + S256x1x1x256.size a ≤ S256x2x16x256.size a
  inb_S256x2x16x256_S256x1x1x256_0_1_5_0 : ∀ a, (![0, 1, 5, 0] : Fin 4 → Nat) a + S256x1x1x256.size a ≤ S256x2x16x256.size a
  inb_S256x2x16x256_S256x1x1x256_0_1_6_0 : ∀ a, (![0, 1, 6, 0] : Fin 4 → Nat) a + S256x1x1x256.size a ≤ S256x2x16x256.size a
  inb_S256x2x16x256_S256x1x1x256_0_1_7_0 : ∀ a, (![0, 1, 7, 0] : Fin 4 → Nat) a + S256x1x1x256.size a ≤ S256x2x16x256.size a
  inb_S256x2x16x256_S256x1x1x256_0_1_8_0 : ∀ a, (![0, 1, 8, 0] : Fin 4 → Nat) a + S256x1x1x256.size a ≤ S256x2x16x256.size a
  inb_S256x2x16x256_S256x1x1x256_0_1_9_0 : ∀ a, (![0, 1, 9, 0] : Fin 4 → Nat) a + S256x1x1x256.size a ≤ S256x2x16x256.size a
  inb_S256x2x16x256_S256x1x1x256_0_1_10_0 : ∀ a, (![0, 1, 10, 0] : Fin 4 → Nat) a + S256x1x1x256.size a ≤ S256x2x16x256.size a
  inb_S256x2x16x256_S256x1x1x256_0_1_11_0 : ∀ a, (![0, 1, 11, 0] : Fin 4 → Nat) a + S256x1x1x256.size a ≤ S256x2x16x256.size a
  inb_S256x2x16x256_S256x1x1x256_0_1_12_0 : ∀ a, (![0, 1, 12, 0] : Fin 4 → Nat) a + S256x1x1x256.size a ≤ S256x2x16x256.size a
  inb_S256x2x16x256_S256x1x1x256_0_1_13_0 : ∀ a, (![0, 1, 13, 0] : Fin 4 → Nat) a + S256x1x1x256.size a ≤ S256x2x16x256.size a
  inb_S256x2x16x256_S256x1x1x256_0_1_14_0 : ∀ a, (![0, 1, 14, 0] : Fin 4 → Nat) a + S256x1x1x256.size a ≤ S256x2x16x256.size a
  inb_S256x2x16x256_S256x1x1x256_0_1_15_0 : ∀ a, (![0, 1, 15, 0] : Fin 4 → Nat) a + S256x1x1x256.size a ≤ S256x2x16x256.size a
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2x16x256.size a ≤ S16384x2x16x256.size a
  hwx0_0 : ∀ i : grid0.Coords, EltTy.bits .f32 = 32 ∨ (Rect.block (s := S16384x2x16x256) S256x2x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S4x256x256.size a
  hwx0_1 : ∀ i : grid0.Coords, EltTy.bits .f32 = 32 ∨ (Rect.block (s := S4x256x256) S4x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x256.size a ≤ S4x256x256.size a
  hwx0_2 : ∀ i : grid0.Coords, EltTy.bits .f32 = 32 ∨ (Rect.block (s := S4x256x256) S4x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2x16x256.size a ≤ S16384x2x16x256.size a
  hwx0_4 : ∀ i : grid0.Coords, EltTy.bits .f32 = 32 ∨ (Rect.block (s := S16384x2x16x256) S256x2x16x256.size (cc0_transform_4 i) (hinb0_4 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S256x2x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x2x16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2x16x256 : Shape := ⟨4, ![16384, 2, 16, 256]⟩
abbrev S4x256x256 : Shape := ⟨3, ![4, 256, 256]⟩
abbrev S256 : Shape := ⟨1, ![256]⟩
abbrev S16384x2x1x256 : Shape := ⟨4, ![16384, 2, 1, 256]⟩
abbrev S16384x1x1x256 : Shape := ⟨4, ![16384, 1, 1, 256]⟩
abbrev S16384x1x256 : Shape := ⟨3, ![16384, 1, 256]⟩
abbrev S1x256x256 : Shape := ⟨3, ![1, 256, 256]⟩
abbrev S256x256 : Shape := ⟨2, ![256, 256]⟩
abbrev S1x1x256 : Shape := ⟨3, ![1, 1, 256]⟩
abbrev S16384x2x3x256 : Shape := ⟨4, ![16384, 2, 3, 256]⟩
abbrev S16384x1x3x256 : Shape := ⟨4, ![16384, 1, 3, 256]⟩
abbrev S16384x3x256 : Shape := ⟨3, ![16384, 3, 256]⟩
abbrev S16384x2x5x256 : Shape := ⟨4, ![16384, 2, 5, 256]⟩
abbrev S16384x1x5x256 : Shape := ⟨4, ![16384, 1, 5, 256]⟩
abbrev S16384x5x256 : Shape := ⟨3, ![16384, 5, 256]⟩
abbrev S16384x2x7x256 : Shape := ⟨4, ![16384, 2, 7, 256]⟩
abbrev S16384x1x7x256 : Shape := ⟨4, ![16384, 1, 7, 256]⟩
abbrev S16384x7x256 : Shape := ⟨3, ![16384, 7, 256]⟩
abbrev S16384x16x256 : Shape := ⟨3, ![16384, 16, 256]⟩
abbrev S16384x1x16x256 : Shape := ⟨4, ![16384, 1, 16, 256]⟩

abbrev nBuf : Space → Nat
  | .hbm => 56
  | .vmem => 0
  | .smem => 0
  | _ => 0

abbrev bufTy : (tb : Table) → Fin (tcTables nBuf tb) → BufTy
  | .hbm, ⟨0, _⟩ => ⟨S16384x2x16x256, .f32⟩
  | .hbm, ⟨1, _⟩ => ⟨S4x256x256, .f32⟩
  | .hbm, ⟨2, _⟩ => ⟨S4x256x256, .f32⟩
  | .hbm, ⟨3, _⟩ => ⟨S256, .f32⟩
  | .hbm, ⟨4, _⟩ => ⟨S16384x2x1x256, .f32⟩
  | .hbm, ⟨5, _⟩ => ⟨S16384x1x1x256, .f32⟩
  | .hbm, ⟨6, _⟩ => ⟨S16384x1x256, .f32⟩
  | .hbm, ⟨7, _⟩ => ⟨S1x256x256, .f32⟩
  | .hbm, ⟨8, _⟩ => ⟨S256x256, .f32⟩
  | .hbm, ⟨9, _⟩ => ⟨S16384x1x256, .f32⟩
  | .hbm, ⟨10, _⟩ => ⟨S1x1x256, .f32⟩
  | .hbm, ⟨11, _⟩ => ⟨S16384x1x256, .f32⟩
  | .hbm, ⟨12, _⟩ => ⟨S16384x1x256, .f32⟩
  | .hbm, ⟨13, _⟩ => ⟨S16384x1x1x256, .f32⟩
  | .hbm, ⟨14, _⟩ => ⟨S16384x1x256, .f32⟩
  | .hbm, ⟨15, _⟩ => ⟨S1x256x256, .f32⟩
  | .hbm, ⟨16, _⟩ => ⟨S256x256, .f32⟩
  | .hbm, ⟨17, _⟩ => ⟨S16384x1x256, .f32⟩
  | .hbm, ⟨18, _⟩ => ⟨S16384x2x3x256, .f32⟩
  | .hbm, ⟨19, _⟩ => ⟨S16384x1x3x256, .f32⟩
  | .hbm, ⟨20, _⟩ => ⟨S16384x3x256, .f32⟩
  | .hbm, ⟨21, _⟩ => ⟨S1x256x256, .f32⟩
  | .hbm, ⟨22, _⟩ => ⟨S256x256, .f32⟩
  | .hbm, ⟨23, _⟩ => ⟨S16384x3x256, .f32⟩
  | .hbm, ⟨24, _⟩ => ⟨S16384x1x3x256, .f32⟩
  | .hbm, ⟨25, _⟩ => ⟨S16384x3x256, .f32⟩
  | .hbm, ⟨26, _⟩ => ⟨S1x256x256, .f32⟩
  | .hbm, ⟨27, _⟩ => ⟨S256x256, .f32⟩
  | .hbm, ⟨28, _⟩ => ⟨S16384x3x256, .f32⟩
  | .hbm, ⟨29, _⟩ => ⟨S16384x2x5x256, .f32⟩
  | .hbm, ⟨30, _⟩ => ⟨S16384x1x5x256, .f32⟩
  | .hbm, ⟨31, _⟩ => ⟨S16384x5x256, .f32⟩
  | .hbm, ⟨32, _⟩ => ⟨S1x256x256, .f32⟩
  | .hbm, ⟨33, _⟩ => ⟨S256x256, .f32⟩
  | .hbm, ⟨34, _⟩ => ⟨S16384x5x256, .f32⟩
  | .hbm, ⟨35, _⟩ => ⟨S16384x1x5x256, .f32⟩
  | .hbm, ⟨36, _⟩ => ⟨S16384x5x256, .f32⟩
  | .hbm, ⟨37, _⟩ => ⟨S1x256x256, .f32⟩
  | .hbm, ⟨38, _⟩ => ⟨S256x256, .f32⟩
  | .hbm, ⟨39, _⟩ => ⟨S16384x5x256, .f32⟩
  | .hbm, ⟨40, _⟩ => ⟨S16384x2x7x256, .f32⟩
  | .hbm, ⟨41, _⟩ => ⟨S16384x1x7x256, .f32⟩
  | .hbm, ⟨42, _⟩ => ⟨S16384x7x256, .f32⟩
  | .hbm, ⟨43, _⟩ => ⟨S1x256x256, .f32⟩
  | .hbm, ⟨44, _⟩ => ⟨S256x256, .f32⟩
  | .hbm, ⟨45, _⟩ => ⟨S16384x7x256, .f32⟩
  | .hbm, ⟨46, _⟩ => ⟨S16384x1x7x256, .f32⟩
  | .hbm, ⟨47, _⟩ => ⟨S16384x7x256, .f32⟩
  | .hbm, ⟨48, _⟩ => ⟨S1x256x256, .f32⟩
  | .hbm, ⟨49, _⟩ => ⟨S256x256, .f32⟩
  | .hbm, ⟨50, _⟩ => ⟨S16384x7x256, .f32⟩
  | .hbm, ⟨51, _⟩ => ⟨S16384x16x256, .f32⟩
  | .hbm, ⟨52, _⟩ => ⟨S16384x16x256, .f32⟩
  | .hbm, ⟨53, _⟩ => ⟨S16384x1x16x256, .f32⟩
  | .hbm, ⟨54, _⟩ => ⟨S16384x1x16x256, .f32⟩
  | .hbm, ⟨55, _⟩ => ⟨S16384x2x16x256, .f32⟩
  | _, _ => ⟨S16384x2x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩

abbrev nD : Nat := 1
abbrev τ : Topo := Topo.v7x

variable {F : FTy → Type} [FloatOps F]

class Facts₀ : Prop where
  slices_S16384x2x16x256_S16384x2x1x256_0_0_0_0 : S16384x2x16x256.Slices ![0, 0, 0, 0] S16384x2x1x256
  slices_S16384x2x1x256_S16384x1x1x256_0_0_0_0 : S16384x2x1x256.Slices ![0, 0, 0, 0] S16384x1x1x256
  shapeCasts_S16384x1x1x256_S16384x1x256 : S16384x1x1x256.ShapeCasts S16384x1x256
  slices_S4x256x256_S1x256x256_0_0_0 : S4x256x256.Slices ![0, 0, 0] S1x256x256
  shapeCasts_S1x256x256_S256x256 : S1x256x256.ShapeCasts S256x256
  bcast_S256_S1x1x256_2 : S256.BroadcastsInDim S1x1x256 (![2] : Fin 1 → Fin S1x1x256.rank)
  bcast_S1x1x256_S16384x1x256_0_1_2 : S1x1x256.BroadcastsInDim S16384x1x256 (![0, 1, 2] : Fin 3 → Fin S16384x1x256.rank)
  slices_S16384x2x1x256_S16384x1x1x256_0_1_0_0 : S16384x2x1x256.Slices ![0, 1, 0, 0] S16384x1x1x256
  slices_S16384x2x16x256_S16384x2x3x256_0_0_1_0 : S16384x2x16x256.Slices ![0, 0, 1, 0] S16384x2x3x256
  slices_S16384x2x3x256_S16384x1x3x256_0_0_0_0 : S16384x2x3x256.Slices ![0, 0, 0, 0] S16384x1x3x256
  shapeCasts_S16384x1x3x256_S16384x3x256 : S16384x1x3x256.ShapeCasts S16384x3x256
  slices_S4x256x256_S1x256x256_1_0_0 : S4x256x256.Slices ![1, 0, 0] S1x256x256
  slices_S16384x2x3x256_S16384x1x3x256_0_1_0_0 : S16384x2x3x256.Slices ![0, 1, 0, 0] S16384x1x3x256
  slices_S16384x2x16x256_S16384x2x5x256_0_0_4_0 : S16384x2x16x256.Slices ![0, 0, 4, 0] S16384x2x5x256
  slices_S16384x2x5x256_S16384x1x5x256_0_0_0_0 : S16384x2x5x256.Slices ![0, 0, 0, 0] S16384x1x5x256
  shapeCasts_S16384x1x5x256_S16384x5x256 : S16384x1x5x256.ShapeCasts S16384x5x256
  slices_S4x256x256_S1x256x256_2_0_0 : S4x256x256.Slices ![2, 0, 0] S1x256x256
  slices_S16384x2x5x256_S16384x1x5x256_0_1_0_0 : S16384x2x5x256.Slices ![0, 1, 0, 0] S16384x1x5x256
  slices_S16384x2x16x256_S16384x2x7x256_0_0_9_0 : S16384x2x16x256.Slices ![0, 0, 9, 0] S16384x2x7x256
  slices_S16384x2x7x256_S16384x1x7x256_0_0_0_0 : S16384x2x7x256.Slices ![0, 0, 0, 0] S16384x1x7x256
  shapeCasts_S16384x1x7x256_S16384x7x256 : S16384x1x7x256.ShapeCasts S16384x7x256
  slices_S4x256x256_S1x256x256_3_0_0 : S4x256x256.Slices ![3, 0, 0] S1x256x256
  slices_S16384x2x7x256_S16384x1x7x256_0_1_0_0 : S16384x2x7x256.Slices ![0, 1, 0, 0] S16384x1x7x256
  concatenates_S16384x1x256_S16384x3x256_S16384x5x256_S16384x7x256_S16384x16x256_d1 : Shape.Concatenates [S16384x1x256, S16384x3x256, S16384x5x256, S16384x7x256] S16384x16x256 1
  bcast_S16384x16x256_S16384x1x16x256_0_2_3 : S16384x16x256.BroadcastsInDim S16384x1x16x256 (![0, 2, 3] : Fin 3 → Fin S16384x1x16x256.rank)
  concatenates_S16384x1x16x256_S16384x1x16x256_S16384x2x16x256_d1 : Shape.Concatenates [S16384x1x16x256, S16384x1x16x256] S16384x2x16x256 1
  dot_S16384x1x256_S256x256_S16384x1x256_2_0_01_1_n_n_wf : DotDims.WF S16384x1x256 S256x256 S16384x1x256 [2] [0] [0, 1] [1] [] []
  dot_S16384x3x256_S256x256_S16384x3x256_2_0_01_1_n_n_wf : DotDims.WF S16384x3x256 S256x256 S16384x3x256 [2] [0] [0, 1] [1] [] []
  dot_S16384x5x256_S256x256_S16384x5x256_2_0_01_1_n_n_wf : DotDims.WF S16384x5x256 S256x256 S16384x5x256 [2] [0] [0, 1] [1] [] []
  dot_S16384x7x256_S256x256_S16384x7x256_2_0_01_1_n_n_wf : DotDims.WF S16384x7x256 S256x256 S16384x7x256 [2] [0] [0, 1] [1] [] []

variable [Facts₀]

def dot_S16384x1x256_S256x256_S16384x1x256_2_0_01_1_n_n : DotDims S16384x1x256 S256x256 S16384x1x256 where
  lhsContracting := [2]
  rhsContracting := [0]
  lhsNonContracting := [0, 1]
  rhsNonContracting := [1]
  lhsBatch := []
  rhsBatch := []
  wf := dot_S16384x1x256_S256x256_S16384x1x256_2_0_01_1_n_n_wf
def dot_S16384x3x256_S256x256_S16384x3x256_2_0_01_1_n_n : DotDims S16384x3x256 S256x256 S16384x3x256 where
  lhsContracting := [2]
  rhsContracting := [0]
  lhsNonContracting := [0, 1]
  rhsNonContracting := [1]
  lhsBatch := []
  rhsBatch := []
  wf := dot_S16384x3x256_S256x256_S16384x3x256_2_0_01_1_n_n_wf
def dot_S16384x5x256_S256x256_S16384x5x256_2_0_01_1_n_n : DotDims S16384x5x256 S256x256 S16384x5x256 where
  lhsContracting := [2]
  rhsContracting := [0]
  lhsNonContracting := [0, 1]
  rhsNonContracting := [1]
  lhsBatch := []
  rhsBatch := []
  wf := dot_S16384x5x256_S256x256_S16384x5x256_2_0_01_1_n_n_wf
def dot_S16384x7x256_S256x256_S16384x7x256_2_0_01_1_n_n : DotDims S16384x7x256 S256x256 S16384x7x256 where
  lhsContracting := [2]
  rhsContracting := [0]
  lhsNonContracting := [0, 1]
  rhsNonContracting := [1]
  lhsBatch := []
  rhsBatch := []
  wf := dot_S16384x7x256_S256x256_S16384x7x256_2_0_01_1_n_n_wf

class Facts : Prop extends Facts₀ where

variable [Facts]
-- ==== Proof.Spec.lean ====
/-
  The function both programs compute, stated once over plain index types.

  An input `X[r, p, c, f]` carries a batch row `r`, a parity `p ∈ {0, 1}`, a channel `c < 16` and a feature `f < 256`.
  Channel `c` belongs to degree `l` with `l² ≤ c < (l + 1)²`, so the sixteen channels fall into degrees 0, 1, 2, 3 of
  1, 3, 5, 7 channels.  The transform is block diagonal: output `(r, p, c, g)` is the inner product over `f` of
  row `X[r, p, c, ·]` with column `g` of the weight matrix of the channel's degree — the even-parity stack `We` for
  `p = 0`, the odd-parity stack `Wo` for `p = 1` — and the bias `b[g]` is added on the single entry `p = 0, c = 0` only.
  On the extended reals nothing more is needed than this: a sum of products, and one sum with the bias.
-/
import Idealize.ShloMosaic.PureOps.Ideal
import Idealize.ShloMosaic.Lib.ValueIdx

noncomputable section

namespace Cert.DegreeLinear

open Idealize.ShloMosaic Idealize.ShloMosaic.ValueIdx

/-- The degree of a channel: the `l` with `l² ≤ c < (l + 1)²`. -/
def deg (c : Fin 16) : Fin 4 := if c.val < 1 then 0 else if c.val < 4 then 1 else if c.val < 9 then 2 else 3

/-- An input or output array of `B` batch rows. -/
abbrev Arr (B : Nat) : Type := (⟨4, ![B, 2, 16, 256]⟩ : Shape).Idx → EReal
/-- A stack of four square weight matrices, one per degree. -/
abbrev Wts : Type := (⟨3, ![4, 256, 256]⟩ : Shape).Idx → EReal
/-- A bias row. -/
abbrev Bias : Type := (⟨1, ![256]⟩ : Shape).Idx → EReal

/-- Row `X[r, p, c, ·]` against column `g` of matrix `l` of the stack `W`. -/
def lin {B : Nat} (X : Arr B) (W : Wts) (r : Fin B) (p : Fin 2) (c : Fin 16) (l : Fin 4) (g : Fin 256) : EReal :=
  ∑ k : Fin 256, X (ix4 r p c k) * W (ix3 l k g)

/-- The transform at coordinates: the matrix is chosen by parity and degree; the bias enters at `p = 0, c = 0` alone. -/
def out {B : Nat} (X : Arr B) (We Wo : Wts) (b : Bias) (r : Fin B) (p : Fin 2) (c : Fin 16) (g : Fin 256) : EReal :=
  if p = 0 then (if c = 0 then lin X We r p c (deg c) g + b (ix1 g) else lin X We r p c (deg c) g)
  else lin X Wo r p c (deg c) g

/-- The transform as an array. -/
def G {B : Nat} (X : Arr B) (We Wo : Wts) (b : Bias) : Arr B := fun i => out X We Wo b (i 0) (i 1) (i 2) (i 3)

/-- `lin` reads its array along one row only. -/
theorem lin_congr {B B' : Nat} {X : Arr B} {X' : Arr B'} {W W' : Wts} {r : Fin B} {r' : Fin B'} (p : Fin 2) (c : Fin 16)
    (l : Fin 4) (g : Fin 256) (hX : ∀ k, X' (ix4 r' p c k) = X (ix4 r p c k)) (hW : ∀ k, W' (ix3 l k g) = W (ix3 l k g)) :
    lin X' W' r' p c l g = lin X W r p c l g := by
  unfold lin
  exact Finset.sum_congr rfl fun k _ => by rw [hX k, hW k]

/-- So does the transform: an entry depends on one row of the input, one column of each stack's matrix of the
    channel's degree, and one entry of the bias. -/
theorem out_congr {B B' : Nat} {X : Arr B} {X' : Arr B'} {We We' Wo Wo' : Wts} {b b' : Bias} {r : Fin B} {r' : Fin B'}
    (p : Fin 2) (c : Fin 16) (g : Fin 256) (hX : ∀ k, X' (ix4 r' p c k) = X (ix4 r p c k))
    (hWe : ∀ k, We' (ix3 (deg c) k g) = We (ix3 (deg c) k g)) (hWo : ∀ k, Wo' (ix3 (deg c) k g) = Wo (ix3 (deg c) k g))
    (hb : b' (ix1 g) = b (ix1 g)) :
    out X' We' Wo' b' r' p c g = out X We Wo b r p c g := by
  unfold out
  rw [lin_congr p c (deg c) g hX hWe, lin_congr p c (deg c) g hX hWo, hb]

/-- The transform of a band of batch rows is that band of the transform: if `X'` holds the rows `o, o + 1, …` of `X`
    and the weights and bias are the same, then `G` of `X'` at row `a` is `G` of `X` at row `o + a`. -/
theorem G_rows {B B' : Nat} (X : Arr B) (X' : Arr B') (We We' Wo Wo' : Wts) (b b' : Bias) (o : Nat)
    (hX : ∀ (a : Fin B') (r : Fin B), r.val = o + a.val → ∀ (p : Fin 2) (c : Fin 16) (k : Fin 256), X' (ix4 a p c k) = X (ix4 r p c k))
    (hWe : ∀ (l : Fin 4) (k g : Fin 256), We' (ix3 l k g) = We (ix3 l k g))
    (hWo : ∀ (l : Fin 4) (k g : Fin 256), Wo' (ix3 l k g) = Wo (ix3 l k g))
    (hb : ∀ g : Fin 256, b' (ix1 g) = b (ix1 g))
    (y : (⟨4, ![B', 2, 16, 256]⟩ : Shape).Idx) (i : (⟨4, ![B, 2, 16, 256]⟩ : Shape).Idx)
    (e0 : (i 0).val = o + (y 0).val) (e1 : (i 1).val = (y 1).val) (e2 : (i 2).val = (y 2).val) (e3 : (i 3).val = (y 3).val) :
    G X' We' Wo' b' y = G X We Wo b i := by
  have hp : i 1 = y 1 := Fin.ext e1
  have hc : i 2 = y 2 := Fin.ext e2
  have hg : i 3 = y 3 := Fin.ext e3
  show out X' We' Wo' b' (y 0) (y 1) (y 2) (y 3) = out X We Wo b (i 0) (i 1) (i 2) (i 3)
  rw [hp, hc, hg]
  exact out_congr (y 1) (y 2) (y 3) (fun k => hX (y 0) (i 0) e0 (y 1) (y 2) k) (fun k => hWe _ k _) (fun k => hWo _ k _) (hb _)

end Cert.DegreeLinear

end
-- ==== Proof.Payload.lean ====
/-
  What one store of the kernel body writes, read at an index.

  The body handles the 32 pairs (parity, channel) one after another.  For each it loads the channel's rows of the
  input block as a 256 × 256 matrix (256 batch rows by 256 features), loads the matrix of the channel's degree from the
  parity's weight stack, multiplies them into a zero accumulator and stores the product back over the channel's rows
  of the output block; for parity 0, channel 0 it adds the bias row, broadcast down the batch rows, before storing.
  At the extended reals the product into a zero accumulator is the plain sum of products over the feature index, so
  a stored entry is exactly `DegreeLinear.lin` (plus the bias entry in the one case).
-/
import proofs.«137734_j4277787427179_2_alg».proof.Proof.Gen.KernelIdeal.Skeleton
import proofs.«137734_j4277787427179_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.PieceValue

open Cert.KernelIdeal Cert.KernelIdeal.Gen Idealize.ShloMosaic Idealize.ShloMosaic.ValueIdx
open Cert.DegreeLinear

/-! ## The 256 × 256 matrix product at an index -/

theorem lhs_row (j : S256x256.Idx) (q : dot_S256x256_S256x256_S256x256_1_0_0_1_n_n.contr.Idx) :
    (dot_S256x256_S256x256_S256x256_1_0_0_1_n_n.lhsIdx j q 0).val = (j 0).val := by
  unfold DotDims.lhsIdx
  rw [dif_neg (show ¬(0 : Fin S256x256.rank) ∈ dot_S256x256_S256x256_S256x256_1_0_0_1_n_n.lhsBatch by decide),
    dif_pos (show (0 : Fin S256x256.rank) ∈ dot_S256x256_S256x256_S256x256_1_0_0_1_n_n.lhsNonContracting by decide)]
  rfl

theorem lhs_col (j : S256x256.Idx) (q : dot_S256x256_S256x256_S256x256_1_0_0_1_n_n.contr.Idx) :
    (dot_S256x256_S256x256_S256x256_1_0_0_1_n_n.lhsIdx j q 1).val = (q ⟨0, by decide⟩).val :=
  dot_S256x256_S256x256_S256x256_1_0_0_1_n_n.lhsIdx_val_of_single rfl j q

theorem rhs_row (j : S256x256.Idx) (q : dot_S256x256_S256x256_S256x256_1_0_0_1_n_n.contr.Idx) :
    (dot_S256x256_S256x256_S256x256_1_0_0_1_n_n.rhsIdx j q 0).val = (q ⟨0, by decide⟩).val :=
  dot_S256x256_S256x256_S256x256_1_0_0_1_n_n.rhsIdx_val_of_single rfl j q

theorem rhs_col (j : S256x256.Idx) (q : dot_S256x256_S256x256_S256x256_1_0_0_1_n_n.contr.Idx) :
    (dot_S256x256_S256x256_S256x256_1_0_0_1_n_n.rhsIdx j q 1).val = (j 1).val := by
  unfold DotDims.rhsIdx
  rw [dif_neg (show ¬(1 : Fin S256x256.rank) ∈ dot_S256x256_S256x256_S256x256_1_0_0_1_n_n.rhsBatch by decide),
    dif_pos (show (1 : Fin S256x256.rank) ∈ dot_S256x256_S256x256_S256x256_1_0_0_1_n_n.rhsNonContracting by decide)]
  rfl

/-- The product into the zero accumulator, at row `a` and column `g`: the sum over the shared index `k` of
    `lhs[a, k] · rhs[k, g]`. -/
theorem mm_apply (lhs rhs : FVec Ideal S256x256 .f32) (a g : Fin 256) :
    matmul dot_S256x256_S256x256_S256x256_1_0_0_1_n_n (some .fp32) lhs rhs (constant (F := Ideal) S256x256 .f32 0x00000000#32) (ix2 a g)
      = ∑ k : Fin 256, lhs (ix2 a k) * rhs (ix2 k g) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 a g) ((contrEquiv1 dot_S256x256_S256x256_S256x256_1_0_0_1_n_n 256 rfl rfl).symm k) = ix2 a k :=
    funext fun d => Fin.ext (by
      match d with
      | ⟨0, _⟩ => exact lhs_row _ _
      | ⟨1, _⟩ => exact (lhs_col _ _).trans hk)
  have er : dot_S256x256_S256x256_S256x256_1_0_0_1_n_n.rhsIdx (ix2 a g) ((contrEquiv1 dot_S256x256_S256x256_S256x256_1_0_0_1_n_n 256 rfl rfl).symm k) = ix2 k g :=
    funext fun d => Fin.ext (by
      match d with
      | ⟨0, _⟩ => exact (rhs_row _ _).trans hk
      | ⟨1, _⟩ => exact rhs_col _ _)
  rw [el, er]

/-! ## One channel's store -/

/-- What the body stores for one (parity, channel) pair, from the loaded weight matrix `w` ([1, 256, 256]) and the
    loaded rows `v` ([256, 1, 1, 256]): both viewed as 256 × 256, multiplied, and viewed as [256, 1, 1, 256] again. -/
def piece (w : Vec Ideal S1x256x256 .f32) (v : Vec Ideal S256x1x1x256 .f32) : FVec Ideal S256x1x1x256 .f32 :=
  shapeCast S256x1x1x256
    (matmul dot_S256x256_S256x256_S256x256_1_0_0_1_n_n (some .fp32) (shapeCast S256x256 v shapeCasts_S256x1x1x256_S256x256 : FVec Ideal S256x256 .f32)
      (shapeCast S256x256 w shapeCasts_S1x256x256_S256x256 : FVec Ideal S256x256 .f32) (constant (F := Ideal) S256x256 .f32 0x00000000#32))
    shapeCasts_S256x256_S256x1x1x256

/-- The same with the bias row `bv` added to every batch row before the store. -/
def pieceBias (w : Vec Ideal S1x256x256 .f32) (v : Vec Ideal S256x1x1x256 .f32) (bv : Vec Ideal S256 .f32) : FVec Ideal S256x1x1x256 .f32 :=
  shapeCast S256x1x1x256
    (addf (matmul dot_S256x256_S256x256_S256x256_1_0_0_1_n_n (some .fp32) (shapeCast S256x256 v shapeCasts_S256x1x1x256_S256x256 : FVec Ideal S256x256 .f32)
        (shapeCast S256x256 w shapeCasts_S1x256x256_S256x256 : FVec Ideal S256x256 .f32) (constant (F := Ideal) S256x256 .f32 0x00000000#32))
      (broadcastTo S256x256 (shapeCast S1x256 bv shapeCasts_S256_S1x256 : FVec Ideal S1x256 .f32) broadcasts_S1x256_S256x256 : FVec Ideal S256x256 .f32))
    shapeCasts_S256x256_S256x1x1x256

theorem cast_out (y : S256x256.Idx → EReal) (a g : Fin 256) :
    shapeCast S256x1x1x256 y shapeCasts_S256x256_S256x1x1x256 (ix4 a (0 : Fin 1) (0 : Fin 1) g) = y (ix2 a g) :=
  shapeCast_apply y shapeCasts_S256x256_S256x1x1x256 (ix4 a (0 : Fin 1) (0 : Fin 1) g) (ix2 a g) (by
    rw [Shape.rowMajor_val_two, Shape.rowMajor_val_four]
    show a.val * 256 + g.val = ((a.val * 1 + 0) * 1 + 0) * 256 + g.val
    omega)

theorem cast_rows (v : S256x1x1x256.Idx → EReal) (a k : Fin 256) :
    shapeCast S256x256 v shapeCasts_S256x1x1x256_S256x256 (ix2 a k) = v (ix4 a (0 : Fin 1) (0 : Fin 1) k) :=
  shapeCast_apply v shapeCasts_S256x1x1x256_S256x256 (ix2 a k) (ix4 a (0 : Fin 1) (0 : Fin 1) k) (by
    rw [Shape.rowMajor_val_two, Shape.rowMajor_val_four]
    show ((a.val * 1 + 0) * 1 + 0) * 256 + k.val = a.val * 256 + k.val
    omega)

theorem cast_weights (w : S1x256x256.Idx → EReal) (k g : Fin 256) :
    shapeCast S256x256 w shapeCasts_S1x256x256_S256x256 (ix2 k g) = w (ix3 (0 : Fin 1) k g) :=
  shapeCast_apply w shapeCasts_S1x256x256_S256x256 (ix2 k g) (ix3 (0 : Fin 1) k g) (by
    rw [Shape.rowMajor_val_two, Shape.rowMajor_val_three]
    show (0 * 256 + k.val) * 256 + g.val = k.val * 256 + g.val
    omega)

/-- A stored entry, at batch row `a` and output feature `g`: the row of `v` against the column of `w`. -/
theorem piece_apply (w : Vec Ideal S1x256x256 .f32) (v : Vec Ideal S256x1x1x256 .f32) (a g : Fin 256) :
    piece w v (ix4 a (0 : Fin 1) (0 : Fin 1) g) = ∑ k : Fin 256, v (ix4 a (0 : Fin 1) (0 : Fin 1) k) * w (ix3 (0 : Fin 1) k g) := by
  unfold piece
  rw [cast_out, mm_apply]
  exact Finset.sum_congr rfl fun k _ => by rw [cast_rows, cast_weights]

/-- With the bias: the same sum plus the bias entry of the output feature. -/
theorem pieceBias_apply (w : Vec Ideal S1x256x256 .f32) (v : Vec Ideal S256x1x1x256 .f32) (bv : Vec Ideal S256 .f32) (a g : Fin 256) :
    pieceBias w v bv (ix4 a (0 : Fin 1) (0 : Fin 1) g)
      = (∑ k : Fin 256, v (ix4 a (0 : Fin 1) (0 : Fin 1) k) * w (ix3 (0 : Fin 1) k g)) + bv (ix1 g) := by
  unfold pieceBias
  rw [cast_out, addf_apply, mm_apply, broadcastTo_1b_ab_apply, shapeCast_a_1a_apply]
  exact congrArg (· + bv (ix1 g)) (Finset.sum_congr rfl fun k _ => by rw [cast_rows, cast_weights])

end Cert.KernelIdeal.PieceValue

end
-- ==== Proof.Block.lean ====
/-
  What the body leaves in the output block, as one function of the input blocks.

  The 32 stores write 32 disjoint slabs of the [256, 2, 16, 256] output block: the slab of (parity `p`, channel `c`)
  is the set of indices `(a, p, c, g)`.  Each slab holds the product of the same slab of the input block with the
  matrix of degree `deg c` from the stack of parity `p` (plus the bias on the slab `p = 0, c = 0`), which is the
  transform `DegreeLinear.G` of the input blocks restricted to the slab.  Since the slabs tile the block, the block is
  `DegreeLinear.G` of the input blocks.
-/
import proofs.«137734_j4277787427179_2_alg».proof.Proof.Gen.KernelIdeal.Frame
import proofs.«137734_j4277787427179_2_alg».proof.Proof.Payload

noncomputable section

namespace Cert.KernelIdeal.BlockValue

open Cert.KernelIdeal Cert.KernelIdeal.Gen Cert.KernelIdeal.PieceValue Idealize.ShloMosaic Idealize.ShloMosaic.ValueIdx
open Cert.DegreeLinear

/-- An index of a stored slab: a batch row and an output feature; the two middle axes have extent one. -/
theorem idx_split (x : S256x1x1x256.Idx) : ∃ a g : Fin 256, x = ix4 a (0 : Fin 1) (0 : Fin 1) g :=
  ⟨x 0, x 3, funext fun d => by
    match d with
    | ⟨0, _⟩ => rfl
    | ⟨1, _⟩ => exact Fin.ext (by show (x 1).val = 0; have h : (x 1).val < 1 := (x 1).isLt; omega)
    | ⟨2, _⟩ => exact Fin.ext (by show (x 2).val = 0; have h : (x 2).val < 1 := (x 2).isLt; omega)
    | ⟨3, _⟩ => rfl⟩

/-- The slab of (parity `p`, channel `c`) sits at offsets `(0, p, c, 0)` of the block. -/
theorem slab_emb (p : Fin 2) (c : Fin 16) (inbX : ∀ a, (![0, p.val, c.val, 0] : Fin 4 → Nat) a + S256x1x1x256.size a ≤ S256x2x16x256.size a)
    (a k : Fin 256) :
    (Rect.unit (s := S256x2x16x256) ![0, p.val, c.val, 0] S256x1x1x256.size inbX).idx (ix4 a (0 : Fin 1) (0 : Fin 1) k) = ix4 a p c k :=
  funext fun d => Fin.ext (by
    match d with
    | ⟨0, _⟩ => show 0 + 1 * a.val = a.val; omega
    | ⟨1, _⟩ => show p.val + 1 * 0 = p.val; omega
    | ⟨2, _⟩ => show c.val + 1 * 0 = c.val; omega
    | ⟨3, _⟩ => show 0 + 1 * k.val = k.val; omega)

/-- Matrix `l` of a weight stack sits at offsets `(l, 0, 0)`. -/
theorem mat_emb (l : Fin 4) (inbW : ∀ a, (![l.val, 0, 0] : Fin 3 → Nat) a + S1x256x256.size a ≤ S4x256x256.size a) (k g : Fin 256) :
    (Rect.unit (s := S4x256x256) ![l.val, 0, 0] S1x256x256.size inbW).idx (ix3 (0 : Fin 1) k g) = ix3 l k g :=
  funext fun d => Fin.ext (by
    match d with
    | ⟨0, _⟩ => show l.val + 1 * 0 = l.val; omega
    | ⟨1, _⟩ => show 0 + 1 * k.val = k.val; omega
    | ⟨2, _⟩ => show 0 + 1 * g.val = g.val; omega)

/-- A stored slab without bias is the transform on that slab: the product of the slab's rows with matrix `l` of the
    stack `W`, whenever the transform at (`p`, `c`) is that product (`hsel`: `W` is the parity's stack and `l` the
    channel's degree). -/
theorem piece_entry (x0 : Vec Ideal S256x2x16x256 .f32) (x1 x2 : Vec Ideal S4x256x256 .f32) (x3 : Vec Ideal S256 .f32)
    (W : Vec Ideal S4x256x256 .f32) (p : Fin 2) (c : Fin 16) (l : Fin 4)
    (offX : Fin 4 → Nat) (offW : Fin 3 → Nat) (hX : offX = ![0, p.val, c.val, 0]) (hW : offW = ![l.val, 0, 0])
    (inbX : ∀ a, offX a + S256x1x1x256.size a ≤ S256x2x16x256.size a) (inbW : ∀ a, offW a + S1x256x256.size a ≤ S4x256x256.size a)
    (hsel : ∀ (r g : Fin 256), out x0 x1 x2 x3 r p c g = lin x0 W r p c l g)
    (x : S256x1x1x256.Idx) :
    piece (View.ld W (Rect.unit (s := S4x256x256) offW S1x256x256.size inbW))
        (View.ld x0 (Rect.unit (s := S256x2x16x256) offX S256x1x1x256.size inbX)) x
      = G x0 x1 x2 x3 ((Rect.unit (s := S256x2x16x256) offX S256x1x1x256.size inbX).emb x) := by
  subst hX hW
  obtain ⟨a, g, rfl⟩ := idx_split x
  rw [piece_apply]
  show _ = G x0 x1 x2 x3 ((Rect.unit (s := S256x2x16x256) ![0, p.val, c.val, 0] S256x1x1x256.size inbX).idx (ix4 a (0 : Fin 1) (0 : Fin 1) g))
  rw [slab_emb p c inbX a g]
  show _ = out x0 x1 x2 x3 a p c g
  rw [hsel a g]
  unfold lin
  refine Finset.sum_congr rfl fun k _ => ?_
  show x0 ((Rect.unit (s := S256x2x16x256) ![0, p.val, c.val, 0] S256x1x1x256.size inbX).idx (ix4 a (0 : Fin 1) (0 : Fin 1) k))
      * W ((Rect.unit (s := S4x256x256) ![l.val, 0, 0] S1x256x256.size inbW).idx (ix3 (0 : Fin 1) k g)) = _
  rw [slab_emb p c inbX a k, mat_emb l inbW k g]

/-- The slab of parity 0, channel 0, stored with the bias, is the transform there. -/
theorem bias_entry (x0 : Vec Ideal S256x2x16x256 .f32) (x1 x2 : Vec Ideal S4x256x256 .f32) (x3 : Vec Ideal S256 .f32)
    (offX : Fin 4 → Nat) (offW : Fin 3 → Nat) (offB : Fin 1 → Nat)
    (hX : offX = ![0, (0 : Fin 2).val, (0 : Fin 16).val, 0]) (hW : offW = ![(0 : Fin 4).val, 0, 0]) (hB : offB = ![0])
    (inbX : ∀ a, offX a + S256x1x1x256.size a ≤ S256x2x16x256.size a) (inbW : ∀ a, offW a + S1x256x256.size a ≤ S4x256x256.size a)
    (inbB : ∀ a, offB a + S256.size a ≤ S256.size a)
    (x : S256x1x1x256.Idx) :
    pieceBias (View.ld x1 (Rect.unit (s := S4x256x256) offW S1x256x256.size inbW))
        (View.ld x0 (Rect.unit (s := S256x2x16x256) offX S256x1x1x256.size inbX))
        (View.ld x3 (Rect.unit (s := S256) offB S256.size inbB)) x
      = G x0 x1 x2 x3 ((Rect.unit (s := S256x2x16x256) offX S256x1x1x256.size inbX).emb x) := by
  subst hX hW hB
  obtain ⟨a, g, rfl⟩ := idx_split x
  rw [pieceBias_apply]
  show _ = G x0 x1 x2 x3 ((Rect.unit (s := S256x2x16x256) ![0, (0 : Fin 2).val, (0 : Fin 16).val, 0] S256x1x1x256.size inbX).idx (ix4 a (0 : Fin 1) (0 : Fin 1) g))
  rw [slab_emb 0 0 inbX a g]
  show _ = lin x0 x1 a 0 0 0 g + x3 (ix1 g)
  unfold lin
  have hb : View.ld x3 (Rect.unit (s := S256) ![0] S256.size inbB) (ix1 g) = x3 (ix1 g) :=
    congrArg x3 (funext fun d => Fin.ext (by
      match d with
      | ⟨0, _⟩ => show 0 + 1 * g.val = g.val; omega))
  rw [hb]
  refine congrArg (· + x3 (ix1 g)) (Finset.sum_congr rfl fun k _ => ?_)
  show x0 ((Rect.unit (s := S256x2x16x256) ![0, (0 : Fin 2).val, (0 : Fin 16).val, 0] S256x1x1x256.size inbX).idx (ix4 a (0 : Fin 1) (0 : Fin 1) k))
      * x1 ((Rect.unit (s := S4x256x256) ![(0 : Fin 4).val, 0, 0] S1x256x256.size inbW).idx (ix3 (0 : Fin 1) k g)) = _
  rw [slab_emb 0 0 inbX a k, mat_emb 0 inbW k g]

/-- The output block after the body is the transform of the input blocks. -/
theorem out_eq (x0 : Vec Ideal S256x2x16x256 .f32) (x1 x2 : Vec Ideal S4x256x256 .f32) (x3 : Vec Ideal S256 .f32) :
    out0_4 x0 x1 x2 x3 = G x0 x1 x2 x3 := by
  funext y
  unfold out0_4
  refine View.canon_apply_of_pieces (Val := Elt Ideal) (S := S256x2x16x256) (e := .f32) (G x0 x1 x2 x3) _ ?_ y
    (cover0_4 _ _ _ _ _ _ _ _ _ _ _ _ _ _ _ _ _ _ _ _ _ _ _ _ _ _ _ _ _ _ _ _ y)
  intro q hq
  simp only [List.mem_cons, List.not_mem_nil, or_false] at hq
  rcases hq with rfl | rfl | rfl | rfl | rfl | rfl | rfl | rfl | rfl | rfl | rfl | rfl | rfl | rfl | rfl | rfl
    | rfl | rfl | rfl | rfl | rfl | rfl | rfl | rfl | rfl | rfl | rfl | rfl | rfl | rfl | rfl | rfl
  · exact piece_entry x0 x1 x2 x3 x2 1 15 3 _ _ rfl rfl _ _ (fun _ _ => rfl)
  · exact piece_entry x0 x1 x2 x3 x2 1 14 3 _ _ rfl rfl _ _ (fun _ _ => rfl)
  · exact piece_entry x0 x1 x2 x3 x2 1 13 3 _ _ rfl rfl _ _ (fun _ _ => rfl)
  · exact piece_entry x0 x1 x2 x3 x2 1 12 3 _ _ rfl rfl _ _ (fun _ _ => rfl)
  · exact piece_entry x0 x1 x2 x3 x2 1 11 3 _ _ rfl rfl _ _ (fun _ _ => rfl)
  · exact piece_entry x0 x1 x2 x3 x2 1 10 3 _ _ rfl rfl _ _ (fun _ _ => rfl)
  · exact piece_entry x0 x1 x2 x3 x2 1 9 3 _ _ rfl rfl _ _ (fun _ _ => rfl)
  · exact piece_entry x0 x1 x2 x3 x2 1 8 2 _ _ rfl rfl _ _ (fun _ _ => rfl)
  · exact piece_entry x0 x1 x2 x3 x2 1 7 2 _ _ rfl rfl _ _ (fun _ _ => rfl)
  · exact piece_entry x0 x1 x2 x3 x2 1 6 2 _ _ rfl rfl _ _ (fun _ _ => rfl)
  · exact piece_entry x0 x1 x2 x3 x2 1 5 2 _ _ rfl rfl _ _ (fun _ _ => rfl)
  · exact piece_entry x0 x1 x2 x3 x2 1 4 2 _ _ rfl rfl _ _ (fun _ _ => rfl)
  · exact piece_entry x0 x1 x2 x3 x2 1 3 1 _ _ rfl rfl _ _ (fun _ _ => rfl)
  · exact piece_entry x0 x1 x2 x3 x2 1 2 1 _ _ rfl rfl _ _ (fun _ _ => rfl)
  · exact piece_entry x0 x1 x2 x3 x2 1 1 1 _ _ rfl rfl _ _ (fun _ _ => rfl)
  · exact piece_entry x0 x1 x2 x3 x2 1 0 0 _ _ rfl rfl _ _ (fun _ _ => rfl)
  · exact piece_entry x0 x1 x2 x3 x1 0 15 3 _ _ rfl rfl _ _ (fun _ _ => rfl)
  · exact piece_entry x0 x1 x2 x3 x1 0 14 3 _ _ rfl rfl _ _ (fun _ _ => rfl)
  · exact piece_entry x0 x1 x2 x3 x1 0 13 3 _ _ rfl rfl _ _ (fun _ _ => rfl)
  · exact piece_entry x0 x1 x2 x3 x1 0 12 3 _ _ rfl rfl _ _ (fun _ _ => rfl)
  · exact piece_entry x0 x1 x2 x3 x1 0 11 3 _ _ rfl rfl _ _ (fun _ _ => rfl)
  · exact piece_entry x0 x1 x2 x3 x1 0 10 3 _ _ rfl rfl _ _ (fun _ _ => rfl)
  · exact piece_entry x0 x1 x2 x3 x1 0 9 3 _ _ rfl rfl _ _ (fun _ _ => rfl)
  · exact piece_entry x0 x1 x2 x3 x1 0 8 2 _ _ rfl rfl _ _ (fun _ _ => rfl)
  · exact piece_entry x0 x1 x2 x3 x1 0 7 2 _ _ rfl rfl _ _ (fun _ _ => rfl)
  · exact piece_entry x0 x1 x2 x3 x1 0 6 2 _ _ rfl rfl _ _ (fun _ _ => rfl)
  · exact piece_entry x0 x1 x2 x3 x1 0 5 2 _ _ rfl rfl _ _ (fun _ _ => rfl)
  · exact piece_entry x0 x1 x2 x3 x1 0 4 2 _ _ rfl rfl _ _ (fun _ _ => rfl)
  · exact piece_entry x0 x1 x2 x3 x1 0 3 1 _ _ rfl rfl _ _ (fun _ _ => rfl)
  · exact piece_entry x0 x1 x2 x3 x1 0 2 1 _ _ rfl rfl _ _ (fun _ _ => rfl)
  · exact piece_entry x0 x1 x2 x3 x1 0 1 1 _ _ rfl rfl _ _ (fun _ _ => rfl)
  · exact bias_entry x0 x1 x2 x3 _ _ _ rfl rfl rfl _ _ _

end Cert.KernelIdeal.BlockValue

end
-- ==== Proof.Array.lean ====
/-
  From blocks to the whole array: what the kernel's run leaves in its result.

  The grid has 64 points; point `t` works on batch rows `256 t ‥ 256 t + 255`: its input block is that band of the
  input, its output block that band of the result, and it sees the two weight stacks and the bias whole.  The body
  leaves the transform of its input blocks in the output block, and the transform of a band of rows is the band of
  the transform, so point `t` writes back band `t` of `DegreeLinear.G` of the arguments.  The 64 bands cover the
  result array, which therefore ends holding `DegreeLinear.G` of the arguments.
-/
import proofs.«137734_j4277787427179_2_alg».proof.Proof.Gen.KernelIdeal.Value
import proofs.«137734_j4277787427179_2_alg».proof.Proof.Block

noncomputable section

namespace Cert.KernelIdeal.ArrayValue

open Cert.KernelIdeal Cert.KernelIdeal.Gen Cert.KernelIdeal.BlockValue Idealize.ShloMosaic Idealize.ShloMosaic.TcCoe Idealize.SL.Sem
open Idealize.ShloMosaic.ValueIdx
open Idealize.ShloMosaic.Pipeline (Dat)
open Cert.DegreeLinear

variable (m : (ℓ : Loc nD τ sig) → Buf (Elt Ideal) ℓ) (ρ : Dev nD → PrngReg)

/-- The block index maps over the grid: the input and the result move along the batch axis with the point, and
    the weight stacks and the bias stay at block 0. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_4.index t (0 : Fin 4) = t.val ∧ win0_4.index t (1 : Fin 4) = 0 ∧ win0_4.index t (2 : Fin 4) = 0 ∧ win0_4.index t (3 : Fin 4) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 1) = 0 :=
  (by decide +kernel : ∀ t : Fin grid0.N, _)

/-- The input block at point `t` is the band of rows `256 t ‥` of the input. -/
theorem in_block (c : Dev nD) (t : Fin cfg0.N) (a : Fin 256) (r : Fin 16384) (hr : r.val = t.val * 256 + a.val)
    (p : Fin 2) (cc : Fin 16) (k : Fin 256) :
    iblk m c 0 t (ix4 a p cc k) = V m c main_arg0 (ix4 r p cc k) := by
  obtain ⟨f0, f1, f2, f3, -⟩ := idx_facts t
  show V m c main_arg0 (((cfg0.win 0).blk t).view.emb (ix4 a p cc k)) = V m c main_arg0 (ix4 r p cc k)
  refine congrArg (V m c main_arg0) (funext fun d => Fin.ext ?_)
  match d with
  | ⟨0, _⟩ => show win0_0.index t (0 : Fin 4) * 256 + 1 * a.val = r.val; omega
  | ⟨1, _⟩ => show win0_0.index t (1 : Fin 4) * 2 + 1 * p.val = p.val; omega
  | ⟨2, _⟩ => show win0_0.index t (2 : Fin 4) * 16 + 1 * cc.val = cc.val; omega
  | ⟨3, _⟩ => show win0_0.index t (3 : Fin 4) * 256 + 1 * k.val = k.val; omega

/-- Every point sees the even-parity weight stack whole, -/
theorem we_block (c : Dev nD) (t : Fin cfg0.N) (l : Fin 4) (k g : Fin 256) :
    iblk m c 1 t (ix3 l k g) = V m c main_arg1 (ix3 l k g) := by
  obtain ⟨-, -, -, -, -, -, -, -, f0, f1, f2, -⟩ := idx_facts t
  show V m c main_arg1 (((cfg0.win 1).blk t).view.emb (ix3 l k g)) = V m c main_arg1 (ix3 l k g)
  refine congrArg (V m c main_arg1) (funext fun d => Fin.ext ?_)
  match d with
  | ⟨0, _⟩ => show win0_1.index t (0 : Fin 3) * 4 + 1 * l.val = l.val; omega
  | ⟨1, _⟩ => show win0_1.index t (1 : Fin 3) * 256 + 1 * k.val = k.val; omega
  | ⟨2, _⟩ => show win0_1.index t (2 : Fin 3) * 256 + 1 * g.val = g.val; omega

/-- the odd-parity stack whole, -/
theorem wo_block (c : Dev nD) (t : Fin cfg0.N) (l : Fin 4) (k g : Fin 256) :
    iblk m c 2 t (ix3 l k g) = V m c main_arg2 (ix3 l k g) := by
  obtain ⟨-, -, -, -, -, -, -, -, -, -, -, f0, f1, f2, -⟩ := idx_facts t
  show V m c main_arg2 (((cfg0.win 2).blk t).view.emb (ix3 l k g)) = V m c main_arg2 (ix3 l k g)
  refine congrArg (V m c main_arg2) (funext fun d => Fin.ext ?_)
  match d with
  | ⟨0, _⟩ => show win0_2.index t (0 : Fin 3) * 4 + 1 * l.val = l.val; omega
  | ⟨1, _⟩ => show win0_2.index t (1 : Fin 3) * 256 + 1 * k.val = k.val; omega
  | ⟨2, _⟩ => show win0_2.index t (2 : Fin 3) * 256 + 1 * g.val = g.val; omega

/-- and the bias whole. -/
theorem bias_block (c : Dev nD) (t : Fin cfg0.N) (g : Fin 256) :
    iblk m c 3 t (ix1 g) = V m c main_arg3 (ix1 g) := by
  obtain ⟨-, -, -, -, -, -, -, -, -, -, -, -, -, -, f0⟩ := idx_facts t
  show V m c main_arg3 (((cfg0.win 3).blk t).view.emb (ix1 g)) = V m c main_arg3 (ix1 g)
  refine congrArg (V m c main_arg3) (funext fun d => Fin.ext ?_)
  match d with
  | ⟨0, _⟩ => show win0_3.index t (0 : Fin 1) * 256 + 1 * g.val = g.val; omega

/-- Point `t` writes back band `t` of the transform of the arguments. -/
theorem flushed_eq (c : Dev nD) (t : Fin cfg0.N) :
    (dats m 0 c).flushed 4 t
      = ((cfg0.win 4).blk t).view.read (Elt Ideal) (G (V m c main_arg0) (V m c main_arg1) (V m c main_arg2) (V m c main_arg3)) := by
  have h := out_eq (iblk m c 0 t) (iblk m c 1 t) (iblk m c 2 t) (iblk m c 3 t)
  rw [Value.flushed4, h]
  obtain ⟨-, -, -, -, g0, g1, g2, g3, -⟩ := idx_facts t
  funext y
  show G (iblk m c 0 t) (iblk m c 1 t) (iblk m c 2 t) (iblk m c 3 t) y
      = G (V m c main_arg0) (V m c main_arg1) (V m c main_arg2) (V m c main_arg3) (((cfg0.win 4).blk t).view.emb y)
  refine G_rows (V m c main_arg0) (iblk m c 0 t) (V m c main_arg1) (iblk m c 1 t) (V m c main_arg2) (iblk m c 2 t)
    (V m c main_arg3) (iblk m c 3 t) (t.val * 256) (fun a r hr p cc k => in_block m c t a r hr p cc k)
    (fun l k g => we_block m c t l k g) (fun l k g => wo_block m c t l k g) (fun g => bias_block m c t g) y _ ?_ ?_ ?_ ?_
  · show win0_4.index t (0 : Fin 4) * 256 + 1 * (y 0).val = t.val * 256 + (y 0).val; omega
  · show win0_4.index t (1 : Fin 4) * 2 + 1 * (y 1).val = (y 1).val; omega
  · show win0_4.index t (2 : Fin 4) * 16 + 1 * (y 2).val = (y 2).val; omega
  · show win0_4.index t (3 : Fin 4) * 256 + 1 * (y 3).val = (y 3).val; omega

/-- An index of the result is in point `t`'s block iff each coordinate is in the block's range on its axis. -/
theorem mem_blk (t : Fin cfg0.N) (i : S16384x2x16x256.Idx) :
    i ∈ ((cfg0.win 4).blk t).view.set ↔ ∀ a : Fin 4, win0_4.index t a * S256x2x16x256.size a ≤ (i a).val
      ∧ (i a).val < win0_4.index t a * S256x2x16x256.size a + S256x2x16x256.size a := by
  show i ∈ ((View.whole main_v0).slice (win0_4.rect t)).set ↔ _
  rw [View.set_slice_whole, Rect.mem_set_unit]
  exact Iff.rfl

/-- Every index of the result lies in the band of the point `⌊row / 256⌋`. -/
theorem cover (i : S16384x2x16x256.Idx) : ∃ t : Fin cfg0.N, (cfg0.win 4).flush t = true ∧ i ∈ ((cfg0.win 4).blk t).view.set := by
  have hN : grid0.N = 64 := N_0
  have h0 : (i 0).val < 16384 := (i 0).isLt
  have h1 : (i 1).val < 2 := (i 1).isLt
  have h2 : (i 2).val < 16 := (i 2).isLt
  have h3 : (i 3).val < 256 := (i 3).isLt
  have hlt : (i 0).val / 256 < grid0.N := by rw [hN]; omega
  obtain ⟨-, -, -, -, g0, g1, g2, g3, -⟩ := idx_facts ⟨(i 0).val / 256, hlt⟩
  refine ⟨⟨(i 0).val / 256, hlt⟩, flush0_4 _, ?_⟩
  rw [mem_blk]
  intro a
  match a with
  | ⟨0, _⟩ =>
    show win0_4.index ⟨(i 0).val / 256, hlt⟩ (0 : Fin 4) * 256 ≤ (i 0).val ∧ (i 0).val < win0_4.index ⟨(i 0).val / 256, hlt⟩ (0 : Fin 4) * 256 + 256
    rw [g0]; show (i 0).val / 256 * 256 ≤ (i 0).val ∧ (i 0).val < (i 0).val / 256 * 256 + 256; omega
  | ⟨1, _⟩ =>
    show win0_4.index ⟨(i 0).val / 256, hlt⟩ (1 : Fin 4) * 2 ≤ (i 1).val ∧ (i 1).val < win0_4.index ⟨(i 0).val / 256, hlt⟩ (1 : Fin 4) * 2 + 2
    rw [g1]; omega
  | ⟨2, _⟩ =>
    show win0_4.index ⟨(i 0).val / 256, hlt⟩ (2 : Fin 4) * 16 ≤ (i 2).val ∧ (i 2).val < win0_4.index ⟨(i 0).val / 256, hlt⟩ (2 : Fin 4) * 16 + 16
    rw [g2]; omega
  | ⟨3, _⟩ =>
    show win0_4.index ⟨(i 0).val / 256, hlt⟩ (3 : Fin 4) * 256 ≤ (i 3).val ∧ (i 3).val < win0_4.index ⟨(i 0).val / 256, hlt⟩ (3 : Fin 4) * 256 + 256
    rw [g3]; omega

/-- The result array after the run is the transform of the arguments. -/
theorem final (c : Dev nD) :
    (dats m 0 c).arrAt 4 cfg0.N = G (V m c main_arg0) (V m c main_arg1) (V m c main_arg2) (V m c main_arg3) :=
  (dats m 0 c).arrAt_eq_of_cover 4 (G (V m c main_arg0) (V m c main_arg1) (V m c main_arg2) (V m c main_arg3))
    (fun t _ => flushed_eq m c t) cover

/-- The kernel's run: every weakly fair execution terminates with the result at the transform of the arguments and the
    arguments unchanged. -/
theorem run : θ_run defs (onTc (τ := τ) (main (F := Ideal))) ⟨m, fun _ => 0, ρ⟩ fun r => ∀ c : Dev nD,
      r.2.mem ((c : Thread nD τ).loc main_v0) = G (V m c main_arg0) (V m c main_arg1) (V m c main_arg2) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.Reference.lean ====
/-
  The reference computes the same function.

  The reference treats the four degrees one after another: for degree `l` it slices the channels `l² ‥ (l + 1)² − 1`
  of each parity out of the input, slices matrix `l` out of that parity's weight stack, and contracts the feature
  axis; it adds the bias row to the one even-parity channel of degree 0; it then lays the four degree groups of each
  parity end to end along the channel axis, and the two parities side by side along the parity axis.  Read at an
  index `(r, p, c, g)`: the parity picks the half, the channel picks the degree group, and the entry is the row
  `X[r, p, c, ·]` against column `g` of the matrix of the channel's degree — `DegreeLinear.out`.
-/
import proofs.«137734_j4277787427179_2_alg».proof.Proof.Gen.ReferenceIdeal.Read
import proofs.«137734_j4277787427179_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx
open Cert.DegreeLinear

/-! ## The eight products -/

/-- Parity 0, degree 0: the reference slices channels 0‥0 of parity 0 and matrix 0 of the stack, and
    contracts the feature axis; at local channel `c'` this is the row of channel `0 + c'` against that matrix. -/
theorem prod_0_0 (X : Arr 16384) (W : Wts) (r : Fin 16384) (c : Fin 16) (c' : Fin 1) (hc : c.val = 0 + c'.val) (g : Fin 256) :
    Read.val_main_v5 (F := Ideal) X W (ix3 r c' g) = lin X W r 0 c 0 g := by
  rw [Read.val_main_v5_apply]
  unfold lin
  refine Finset.sum_congr rfl fun k _ => ?_
  rw [Read.val_main_v2_apply, Read.val_main_v1_apply, Read.val_main_v0_apply, Read.val_main_v4_apply, Read.val_main_v3_apply]
  have hr := r.isLt; have hc' := c'.isLt; have hg := g.isLt; have hk := k.isLt
  have eX : Read.idx_main_v0 (Read.idx_main_v1 (Read.idx_main_v2 (Read.lidx_main_v5 (ix3 r c' g) k))) = ix4 r (0 : Fin 2) c k :=
    funext fun d => Fin.ext (by
      match d with
      | ⟨0, _⟩ => dsimp only [Read.idx_main_v0, Read.idx_main_v1, Read.idx_main_v2, Read.lidx_main_v5, ix3, ix4]; omega
      | ⟨1, _⟩ => rfl
      | ⟨2, _⟩ => dsimp only [Read.idx_main_v0, Read.idx_main_v1, Read.idx_main_v2, Read.lidx_main_v5, ix3, ix4]; omega
      | ⟨3, _⟩ => dsimp only [Read.idx_main_v0, Read.idx_main_v1, Read.idx_main_v2, Read.lidx_main_v5, ix3, ix4]; omega)
  have eW : Read.idx_main_v3 (Read.idx_main_v4 (Read.ridx_main_v5 (ix3 r c' g) k)) = ix3 (0 : Fin 4) k g :=
    funext fun d => Fin.ext (by
      match d with
      | ⟨0, _⟩ => rfl
      | ⟨1, _⟩ => dsimp only [Read.idx_main_v3, Read.idx_main_v4, Read.ridx_main_v5, ix3]; omega
      | ⟨2, _⟩ => dsimp only [Read.idx_main_v3, Read.idx_main_v4, Read.ridx_main_v5, ix3]; omega)
  rw [eX, eW]

/-- Parity 1, degree 0: the reference slices channels 0‥0 of parity 1 and matrix 0 of the stack, and
    contracts the feature axis; at local channel `c'` this is the row of channel `0 + c'` against that matrix. -/
theorem prod_1_0 (X : Arr 16384) (W : Wts) (r : Fin 16384) (c : Fin 16) (c' : Fin 1) (hc : c.val = 0 + c'.val) (g : Fin 256) :
    Read.val_main_v13 (F := Ideal) X W (ix3 r c' g) = lin X W r 1 c 0 g := by
  rw [Read.val_main_v13_apply]
  unfold lin
  refine Finset.sum_congr rfl fun k _ => ?_
  rw [Read.val_main_v10_apply, Read.val_main_v9_apply, Read.val_main_v0_apply, Read.val_main_v12_apply, Read.val_main_v11_apply]
  have hr := r.isLt; have hc' := c'.isLt; have hg := g.isLt; have hk := k.isLt
  have eX : Read.idx_main_v0 (Read.idx_main_v9 (Read.idx_main_v10 (Read.lidx_main_v13 (ix3 r c' g) k))) = ix4 r (1 : Fin 2) c k :=
    funext fun d => Fin.ext (by
      match d with
      | ⟨0, _⟩ => dsimp only [Read.idx_main_v0, Read.idx_main_v9, Read.idx_main_v10, Read.lidx_main_v13, ix3, ix4]; omega
      | ⟨1, _⟩ => rfl
      | ⟨2, _⟩ => dsimp only [Read.idx_main_v0, Read.idx_main_v9, Read.idx_main_v10, Read.lidx_main_v13, ix3, ix4]; omega
      | ⟨3, _⟩ => dsimp only [Read.idx_main_v0, Read.idx_main_v9, Read.idx_main_v10, Read.lidx_main_v13, ix3, ix4]; omega)
  have eW : Read.idx_main_v11 (Read.idx_main_v12 (Read.ridx_main_v13 (ix3 r c' g) k)) = ix3 (0 : Fin 4) k g :=
    funext fun d => Fin.ext (by
      match d with
      | ⟨0, _⟩ => rfl
      | ⟨1, _⟩ => dsimp only [Read.idx_main_v11, Read.idx_main_v12, Read.ridx_main_v13, ix3]; omega
      | ⟨2, _⟩ => dsimp only [Read.idx_main_v11, Read.idx_main_v12, Read.ridx_main_v13, ix3]; omega)
  rw [eX, eW]

/-- Parity 0, degree 1: the reference slices channels 1‥3 of parity 0 and matrix 1 of the stack, and
    contracts the feature axis; at local channel `c'` this is the row of channel `1 + c'` against that matrix. -/
theorem prod_0_1 (X : Arr 16384) (W : Wts) (r : Fin 16384) (c : Fin 16) (c' : Fin 3) (hc : c.val = 1 + c'.val) (g : Fin 256) :
    Read.val_main_v19 (F := Ideal) X W (ix3 r c' g) = lin X W r 0 c 1 g := by
  rw [Read.val_main_v19_apply]
  unfold lin
  refine Finset.sum_congr rfl fun k _ => ?_
  rw [Read.val_main_v16_apply, Read.val_main_v15_apply, Read.val_main_v14_apply, Read.val_main_v18_apply, Read.val_main_v17_apply]
  have hr := r.isLt; have hc' := c'.isLt; have hg := g.isLt; have hk := k.isLt
  have eX : Read.idx_main_v14 (Read.idx_main_v15 (Read.idx_main_v16 (Read.lidx_main_v19 (ix3 r c' g) k))) = ix4 r (0 : Fin 2) c k :=
    funext fun d => Fin.ext (by
      match d with
      | ⟨0, _⟩ => dsimp only [Read.idx_main_v14, Read.idx_main_v15, Read.idx_main_v16, Read.lidx_main_v19, ix3, ix4]; omega
      | ⟨1, _⟩ => rfl
      | ⟨2, _⟩ => dsimp only [Read.idx_main_v14, Read.idx_main_v15, Read.idx_main_v16, Read.lidx_main_v19, ix3, ix4]; omega
      | ⟨3, _⟩ => dsimp only [Read.idx_main_v14, Read.idx_main_v15, Read.idx_main_v16, Read.lidx_main_v19, ix3, ix4]; omega)
  have eW : Read.idx_main_v17 (Read.idx_main_v18 (Read.ridx_main_v19 (ix3 r c' g) k)) = ix3 (1 : Fin 4) k g :=
    funext fun d => Fin.ext (by
      match d with
      | ⟨0, _⟩ => rfl
      | ⟨1, _⟩ => dsimp only [Read.idx_main_v17, Read.idx_main_v18, Read.ridx_main_v19, ix3]; omega
      | ⟨2, _⟩ => dsimp only [Read.idx_main_v17, Read.idx_main_v18, Read.ridx_main_v19, ix3]; omega)
  rw [eX, eW]

/-- Parity 1, degree 1: the reference slices channels 1‥3 of parity 1 and matrix 1 of the stack, and
    contracts the feature axis; at local channel `c'` this is the row of channel `1 + c'` against that matrix. -/
theorem prod_1_1 (X : Arr 16384) (W : Wts) (r : Fin 16384) (c : Fin 16) (c' : Fin 3) (hc : c.val = 1 + c'.val) (g : Fin 256) :
    Read.val_main_v24 (F := Ideal) X W (ix3 r c' g) = lin X W r 1 c 1 g := by
  rw [Read.val_main_v24_apply]
  unfold lin
  refine Finset.sum_congr rfl fun k _ => ?_
  rw [Read.val_main_v21_apply, Read.val_main_v20_apply, Read.val_main_v14_apply, Read.val_main_v23_apply, Read.val_main_v22_apply]
  have hr := r.isLt; have hc' := c'.isLt; have hg := g.isLt; have hk := k.isLt
  have eX : Read.idx_main_v14 (Read.idx_main_v20 (Read.idx_main_v21 (Read.lidx_main_v24 (ix3 r c' g) k))) = ix4 r (1 : Fin 2) c k :=
    funext fun d => Fin.ext (by
      match d with
      | ⟨0, _⟩ => dsimp only [Read.idx_main_v14, Read.idx_main_v20, Read.idx_main_v21, Read.lidx_main_v24, ix3, ix4]; omega
      | ⟨1, _⟩ => rfl
      | ⟨2, _⟩ => dsimp only [Read.idx_main_v14, Read.idx_main_v20, Read.idx_main_v21, Read.lidx_main_v24, ix3, ix4]; omega
      | ⟨3, _⟩ => dsimp only [Read.idx_main_v14, Read.idx_main_v20, Read.idx_main_v21, Read.lidx_main_v24, ix3, ix4]; omega)
  have eW : Read.idx_main_v22 (Read.idx_main_v23 (Read.ridx_main_v24 (ix3 r c' g) k)) = ix3 (1 : Fin 4) k g :=
    funext fun d => Fin.ext (by
      match d with
      | ⟨0, _⟩ => rfl
      | ⟨1, _⟩ => dsimp only [Read.idx_main_v22, Read.idx_main_v23, Read.ridx_main_v24, ix3]; omega
      | ⟨2, _⟩ => dsimp only [Read.idx_main_v22, Read.idx_main_v23, Read.ridx_main_v24, ix3]; omega)
  rw [eX, eW]

/-- Parity 0, degree 2: the reference slices channels 4‥8 of parity 0 and matrix 2 of the stack, and
    contracts the feature axis; at local channel `c'` this is the row of channel `4 + c'` against that matrix. -/
theorem prod_0_2 (X : Arr 16384) (W : Wts) (r : Fin 16384) (c : Fin 16) (c' : Fin 5) (hc : c.val = 4 + c'.val) (g : Fin 256) :
    Read.val_main_v30 (F := Ideal) X W (ix3 r c' g) = lin X W r 0 c 2 g := by
  rw [Read.val_main_v30_apply]
  unfold lin
  refine Finset.sum_congr rfl fun k _ => ?_
  rw [Read.val_main_v27_apply, Read.val_main_v26_apply, Read.val_main_v25_apply, Read.val_main_v29_apply, Read.val_main_v28_apply]
  have hr := r.isLt; have hc' := c'.isLt; have hg := g.isLt; have hk := k.isLt
  have eX : Read.idx_main_v25 (Read.idx_main_v26 (Read.idx_main_v27 (Read.lidx_main_v30 (ix3 r c' g) k))) = ix4 r (0 : Fin 2) c k :=
    funext fun d => Fin.ext (by
      match d with
      | ⟨0, _⟩ => dsimp only [Read.idx_main_v25, Read.idx_main_v26, Read.idx_main_v27, Read.lidx_main_v30, ix3, ix4]; omega
      | ⟨1, _⟩ => rfl
      | ⟨2, _⟩ => dsimp only [Read.idx_main_v25, Read.idx_main_v26, Read.idx_main_v27, Read.lidx_main_v30, ix3, ix4]; omega
      | ⟨3, _⟩ => dsimp only [Read.idx_main_v25, Read.idx_main_v26, Read.idx_main_v27, Read.lidx_main_v30, ix3, ix4]; omega)
  have eW : Read.idx_main_v28 (Read.idx_main_v29 (Read.ridx_main_v30 (ix3 r c' g) k)) = ix3 (2 : Fin 4) k g :=
    funext fun d => Fin.ext (by
      match d with
      | ⟨0, _⟩ => rfl
      | ⟨1, _⟩ => dsimp only [Read.idx_main_v28, Read.idx_main_v29, Read.ridx_main_v30, ix3]; omega
      | ⟨2, _⟩ => dsimp only [Read.idx_main_v28, Read.idx_main_v29, Read.ridx_main_v30, ix3]; omega)
  rw [eX, eW]

/-- Parity 1, degree 2: the reference slices channels 4‥8 of parity 1 and matrix 2 of the stack, and
    contracts the feature axis; at local channel `c'` this is the row of channel `4 + c'` against that matrix. -/
theorem prod_1_2 (X : Arr 16384) (W : Wts) (r : Fin 16384) (c : Fin 16) (c' : Fin 5) (hc : c.val = 4 + c'.val) (g : Fin 256) :
    Read.val_main_v35 (F := Ideal) X W (ix3 r c' g) = lin X W r 1 c 2 g := by
  rw [Read.val_main_v35_apply]
  unfold lin
  refine Finset.sum_congr rfl fun k _ => ?_
  rw [Read.val_main_v32_apply, Read.val_main_v31_apply, Read.val_main_v25_apply, Read.val_main_v34_apply, Read.val_main_v33_apply]
  have hr := r.isLt; have hc' := c'.isLt; have hg := g.isLt; have hk := k.isLt
  have eX : Read.idx_main_v25 (Read.idx_main_v31 (Read.idx_main_v32 (Read.lidx_main_v35 (ix3 r c' g) k))) = ix4 r (1 : Fin 2) c k :=
    funext fun d => Fin.ext (by
      match d with
      | ⟨0, _⟩ => dsimp only [Read.idx_main_v25, Read.idx_main_v31, Read.idx_main_v32, Read.lidx_main_v35, ix3, ix4]; omega
      | ⟨1, _⟩ => rfl
      | ⟨2, _⟩ => dsimp only [Read.idx_main_v25, Read.idx_main_v31, Read.idx_main_v32, Read.lidx_main_v35, ix3, ix4]; omega
      | ⟨3, _⟩ => dsimp only [Read.idx_main_v25, Read.idx_main_v31, Read.idx_main_v32, Read.lidx_main_v35, ix3, ix4]; omega)
  have eW : Read.idx_main_v33 (Read.idx_main_v34 (Read.ridx_main_v35 (ix3 r c' g) k)) = ix3 (2 : Fin 4) k g :=
    funext fun d => Fin.ext (by
      match d with
      | ⟨0, _⟩ => rfl
      | ⟨1, _⟩ => dsimp only [Read.idx_main_v33, Read.idx_main_v34, Read.ridx_main_v35, ix3]; omega
      | ⟨2, _⟩ => dsimp only [Read.idx_main_v33, Read.idx_main_v34, Read.ridx_main_v35, ix3]; omega)
  rw [eX, eW]

/-- Parity 0, degree 3: the reference slices channels 9‥15 of parity 0 and matrix 3 of the stack, and
    contracts the feature axis; at local channel `c'` this is the row of channel `9 + c'` against that matrix. -/
theorem prod_0_3 (X : Arr 16384) (W : Wts) (r : Fin 16384) (c : Fin 16) (c' : Fin 7) (hc : c.val = 9 + c'.val) (g : Fin 256) :
    Read.val_main_v41 (F := Ideal) X W (ix3 r c' g) = lin X W r 0 c 3 g := by
  rw [Read.val_main_v41_apply]
  unfold lin
  refine Finset.sum_congr rfl fun k _ => ?_
  rw [Read.val_main_v38_apply, Read.val_main_v37_apply, Read.val_main_v36_apply, Read.val_main_v40_apply, Read.val_main_v39_apply]
  have hr := r.isLt; have hc' := c'.isLt; have hg := g.isLt; have hk := k.isLt
  have eX : Read.idx_main_v36 (Read.idx_main_v37 (Read.idx_main_v38 (Read.lidx_main_v41 (ix3 r c' g) k))) = ix4 r (0 : Fin 2) c k :=
    funext fun d => Fin.ext (by
      match d with
      | ⟨0, _⟩ => dsimp only [Read.idx_main_v36, Read.idx_main_v37, Read.idx_main_v38, Read.lidx_main_v41, ix3, ix4]; omega
      | ⟨1, _⟩ => rfl
      | ⟨2, _⟩ => dsimp only [Read.idx_main_v36, Read.idx_main_v37, Read.idx_main_v38, Read.lidx_main_v41, ix3, ix4]; omega
      | ⟨3, _⟩ => dsimp only [Read.idx_main_v36, Read.idx_main_v37, Read.idx_main_v38, Read.lidx_main_v41, ix3, ix4]; omega)
  have eW : Read.idx_main_v39 (Read.idx_main_v40 (Read.ridx_main_v41 (ix3 r c' g) k)) = ix3 (3 : Fin 4) k g :=
    funext fun d => Fin.ext (by
      match d with
      | ⟨0, _⟩ => rfl
      | ⟨1, _⟩ => dsimp only [Read.idx_main_v39, Read.idx_main_v40, Read.ridx_main_v41, ix3]; omega
      | ⟨2, _⟩ => dsimp only [Read.idx_main_v39, Read.idx_main_v40, Read.ridx_main_v41, ix3]; omega)
  rw [eX, eW]

/-- Parity 1, degree 3: the reference slices channels 9‥15 of parity 1 and matrix 3 of the stack, and
    contracts the feature axis; at local channel `c'` this is the row of channel `9 + c'` against that matrix. -/
theorem prod_1_3 (X : Arr 16384) (W : Wts) (r : Fin 16384) (c : Fin 16) (c' : Fin 7) (hc : c.val = 9 + c'.val) (g : Fin 256) :
    Read.val_main_v46 (F := Ideal) X W (ix3 r c' g) = lin X W r 1 c 3 g := by
  rw [Read.val_main_v46_apply]
  unfold lin
  refine Finset.sum_congr rfl fun k _ => ?_
  rw [Read.val_main_v43_apply, Read.val_main_v42_apply, Read.val_main_v36_apply, Read.val_main_v45_apply, Read.val_main_v44_apply]
  have hr := r.isLt; have hc' := c'.isLt; have hg := g.isLt; have hk := k.isLt
  have eX : Read.idx_main_v36 (Read.idx_main_v42 (Read.idx_main_v43 (Read.lidx_main_v46 (ix3 r c' g) k))) = ix4 r (1 : Fin 2) c k :=
    funext fun d => Fin.ext (by
      match d with
      | ⟨0, _⟩ => dsimp only [Read.idx_main_v36, Read.idx_main_v42, Read.idx_main_v43, Read.lidx_main_v46, ix3, ix4]; omega
      | ⟨1, _⟩ => rfl
      | ⟨2, _⟩ => dsimp only [Read.idx_main_v36, Read.idx_main_v42, Read.idx_main_v43, Read.lidx_main_v46, ix3, ix4]; omega
      | ⟨3, _⟩ => dsimp only [Read.idx_main_v36, Read.idx_main_v42, Read.idx_main_v43, Read.lidx_main_v46, ix3, ix4]; omega)
  have eW : Read.idx_main_v44 (Read.idx_main_v45 (Read.ridx_main_v46 (ix3 r c' g) k)) = ix3 (3 : Fin 4) k g :=
    funext fun d => Fin.ext (by
      match d with
      | ⟨0, _⟩ => rfl
      | ⟨1, _⟩ => dsimp only [Read.idx_main_v44, Read.idx_main_v45, Read.ridx_main_v46, ix3]; omega
      | ⟨2, _⟩ => dsimp only [Read.idx_main_v44, Read.idx_main_v45, Read.ridx_main_v46, ix3]; omega)
  rw [eX, eW]

/-! ## The bias -/

/-- The one channel of degree 0 and even parity gets the bias row, broadcast over the batch rows. -/
theorem biased (X : Arr 16384) (We : Wts) (b : Bias) (r : Fin 16384) (c' : Fin 1) (g : Fin 256) :
    Read.val_main_v8 (F := Ideal) X We b (ix3 r c' g) = lin X We r 0 0 0 g + b (ix1 g) := by
  rw [Read.val_main_v8_apply, prod_0_0 X We r 0 c' (by have h := c'.isLt; show 0 = 0 + c'.val; omega) g, Read.val_main_v7_apply,
    Read.val_main_v6_apply]
  have e : Read.idx_main_v6 (Read.idx_main_v7 (ix3 r c' g)) = ix1 g :=
    funext fun d => Fin.ext (by
      match d with
      | ⟨0, _⟩ => rfl)
  rw [e]
  rfl

/-! ## The degree of a channel from its range -/

theorem deg_0 (c : Fin 16) (h1 : c.val < 1) : deg c = 0 := by unfold deg; rw [if_pos h1]
theorem deg_1 (c : Fin 16) (h1 : ¬c.val < 1) (h4 : c.val < 4) : deg c = 1 := by unfold deg; rw [if_neg h1, if_pos h4]
theorem deg_2 (c : Fin 16) (h1 : ¬c.val < 1) (h4 : ¬c.val < 4) (h9 : c.val < 9) : deg c = 2 := by
  unfold deg; rw [if_neg h1, if_neg h4, if_pos h9]
theorem deg_3 (c : Fin 16) (h1 : ¬c.val < 1) (h4 : ¬c.val < 4) (h9 : ¬c.val < 9) : deg c = 3 := by
  unfold deg; rw [if_neg h1, if_neg h4, if_neg h9]

/-! ## The degree groups laid end to end

Along the channel axis the groups start at channels 0, 1, 4, 9; channel `c` falls in the group of its degree, at local
channel `c` less the group's start. -/

theorem even_half (X : Arr 16384) (We Wo : Wts) (b : Bias) (r : Fin 16384) (c : Fin 16) (g : Fin 256) :
    Read.val_main_v47 (F := Ideal) X We b (ix3 r c g) = out X We Wo b r 0 c g := by
  have hcl : c.val < 16 := c.isLt
  unfold Read.val_main_v47
  by_cases h1 : c.val < 1
  · refine (concatenate_apply_piece (t := S16384x16x256) (1 : Fin 3) _ _ (ix3 r c g) 0 (by show (0 : ℕ) < 4; omega) S16384x1x256 (Read.val_main_v8 (F := Ideal) X We b) rfl rfl 0 (by rfl)
      (ix3 r (⟨c.val - 0, by omega⟩ : Fin 1) g)
      (fun bb hb => by
        match bb with
        | ⟨0, _⟩ => rfl
        | ⟨1, _⟩ => exact absurd (Fin.ext rfl) hb
        | ⟨2, _⟩ => rfl)
      (by show 0 + (c.val - 0) = c.val; omega)).trans ?_
    rw [biased X We b r _ g]
    have hc0 : c = 0 := Fin.ext (by show c.val = 0; omega)
    rw [hc0]
    unfold out
    rw [if_pos rfl, if_pos rfl, deg_0 0 (by decide)]
  by_cases h4 : c.val < 4
  · refine (concatenate_apply_piece (t := S16384x16x256) (1 : Fin 3) _ _ (ix3 r c g) 1 (by show (1 : ℕ) < 4; omega) S16384x3x256 (Read.val_main_v19 (F := Ideal) X We) rfl rfl 1 (by rfl)
      (ix3 r (⟨c.val - 1, by omega⟩ : Fin 3) g)
      (fun bb hb => by
        match bb with
        | ⟨0, _⟩ => rfl
        | ⟨1, _⟩ => exact absurd (Fin.ext rfl) hb
        | ⟨2, _⟩ => rfl)
      (by show 1 + (c.val - 1) = c.val; omega)).trans ?_
    rw [prod_0_1 X We r c ⟨c.val - 1, by omega⟩ (by show c.val = 1 + (c.val - 1); omega) g]
    have hc0 : ¬c = 0 := fun h => by rw [h] at h1; exact h1 (by decide)
    unfold out
    rw [if_pos rfl, if_neg hc0, deg_1 c h1 h4]
  by_cases h9 : c.val < 9
  · refine (concatenate_apply_piece (t := S16384x16x256) (1 : Fin 3) _ _ (ix3 r c g) 2 (by show (2 : ℕ) < 4; omega) S16384x5x256 (Read.val_main_v30 (F := Ideal) X We) rfl rfl 4 (by rfl)
      (ix3 r (⟨c.val - 4, by omega⟩ : Fin 5) g)
      (fun bb hb => by
        match bb with
        | ⟨0, _⟩ => rfl
        | ⟨1, _⟩ => exact absurd (Fin.ext rfl) hb
        | ⟨2, _⟩ => rfl)
      (by show 4 + (c.val - 4) = c.val; omega)).trans ?_
    rw [prod_0_2 X We r c ⟨c.val - 4, by omega⟩ (by show c.val = 4 + (c.val - 4); omega) g]
    have hc0 : ¬c = 0 := fun h => by rw [h] at h1; exact h1 (by decide)
    unfold out
    rw [if_pos rfl, if_neg hc0, deg_2 c h1 h4 h9]
  · refine (concatenate_apply_piece (t := S16384x16x256) (1 : Fin 3) _ _ (ix3 r c g) 3 (by show (3 : ℕ) < 4; omega) S16384x7x256 (Read.val_main_v41 (F := Ideal) X We) rfl rfl 9 (by rfl)
      (ix3 r (⟨c.val - 9, by omega⟩ : Fin 7) g)
      (fun bb hb => by
        match bb with
        | ⟨0, _⟩ => rfl
        | ⟨1, _⟩ => exact absurd (Fin.ext rfl) hb
        | ⟨2, _⟩ => rfl)
      (by show 9 + (c.val - 9) = c.val; omega)).trans ?_
    rw [prod_0_3 X We r c ⟨c.val - 9, by omega⟩ (by show c.val = 9 + (c.val - 9); omega) g]
    have hc0 : ¬c = 0 := fun h => by rw [h] at h1; exact h1 (by decide)
    unfold out
    rw [if_pos rfl, if_neg hc0, deg_3 c h1 h4 h9]

theorem odd_half (X : Arr 16384) (We Wo : Wts) (b : Bias) (r : Fin 16384) (c : Fin 16) (g : Fin 256) :
    Read.val_main_v48 (F := Ideal) X Wo (ix3 r c g) = out X We Wo b r 1 c g := by
  have hcl : c.val < 16 := c.isLt
  unfold Read.val_main_v48
  by_cases h1 : c.val < 1
  · refine (concatenate_apply_piece (t := S16384x16x256) (1 : Fin 3) _ _ (ix3 r c g) 0 (by show (0 : ℕ) < 4; omega) S16384x1x256 (Read.val_main_v13 (F := Ideal) X Wo) rfl rfl 0 (by rfl)
      (ix3 r (⟨c.val - 0, by omega⟩ : Fin 1) g)
      (fun bb hb => by
        match bb with
        | ⟨0, _⟩ => rfl
        | ⟨1, _⟩ => exact absurd (Fin.ext rfl) hb
        | ⟨2, _⟩ => rfl)
      (by show 0 + (c.val - 0) = c.val; omega)).trans ?_
    rw [prod_1_0 X Wo r c ⟨c.val - 0, by omega⟩ (by show c.val = 0 + (c.val - 0); omega) g]
    unfold out
    rw [if_neg (by decide), deg_0 c h1]
  by_cases h4 : c.val < 4
  · refine (concatenate_apply_piece (t := S16384x16x256) (1 : Fin 3) _ _ (ix3 r c g) 1 (by show (1 : ℕ) < 4; omega) S16384x3x256 (Read.val_main_v24 (F := Ideal) X Wo) rfl rfl 1 (by rfl)
      (ix3 r (⟨c.val - 1, by omega⟩ : Fin 3) g)
      (fun bb hb => by
        match bb with
        | ⟨0, _⟩ => rfl
        | ⟨1, _⟩ => exact absurd (Fin.ext rfl) hb
        | ⟨2, _⟩ => rfl)
      (by show 1 + (c.val - 1) = c.val; omega)).trans ?_
    rw [prod_1_1 X Wo r c ⟨c.val - 1, by omega⟩ (by show c.val = 1 + (c.val - 1); omega) g]
    unfold out
    rw [if_neg (by decide), deg_1 c h1 h4]
  by_cases h9 : c.val < 9
  · refine (concatenate_apply_piece (t := S16384x16x256) (1 : Fin 3) _ _ (ix3 r c g) 2 (by show (2 : ℕ) < 4; omega) S16384x5x256 (Read.val_main_v35 (F := Ideal) X Wo) rfl rfl 4 (by rfl)
      (ix3 r (⟨c.val - 4, by omega⟩ : Fin 5) g)
      (fun bb hb => by
        match bb with
        | ⟨0, _⟩ => rfl
        | ⟨1, _⟩ => exact absurd (Fin.ext rfl) hb
        | ⟨2, _⟩ => rfl)
      (by show 4 + (c.val - 4) = c.val; omega)).trans ?_
    rw [prod_1_2 X Wo r c ⟨c.val - 4, by omega⟩ (by show c.val = 4 + (c.val - 4); omega) g]
    unfold out
    rw [if_neg (by decide), deg_2 c h1 h4 h9]
  · refine (concatenate_apply_piece (t := S16384x16x256) (1 : Fin 3) _ _ (ix3 r c g) 3 (by show (3 : ℕ) < 4; omega) S16384x7x256 (Read.val_main_v46 (F := Ideal) X Wo) rfl rfl 9 (by rfl)
      (ix3 r (⟨c.val - 9, by omega⟩ : Fin 7) g)
      (fun bb hb => by
        match bb with
        | ⟨0, _⟩ => rfl
        | ⟨1, _⟩ => exact absurd (Fin.ext rfl) hb
        | ⟨2, _⟩ => rfl)
      (by show 9 + (c.val - 9) = c.val; omega)).trans ?_
    rw [prod_1_3 X Wo r c ⟨c.val - 9, by omega⟩ (by show c.val = 9 + (c.val - 9); omega) g]
    unfold out
    rw [if_neg (by decide), deg_3 c h1 h4 h9]

/-! ## The two parities side by side -/

/-- The reference's result is the transform of its arguments. -/
theorem result_eq (X : Arr 16384) (We Wo : Wts) (b : Bias) :
    Read.val_main_v51 (F := Ideal) X We Wo b = G X We Wo b := by
  funext i
  obtain ⟨r, p, c, g, rfl⟩ : ∃ (r : Fin 16384) (p : Fin 2) (c : Fin 16) (g : Fin 256), i = ix4 r p c g :=
    ⟨i 0, i 1, i 2, i 3, eq_ix4 i⟩
  have hpl : p.val < 2 := p.isLt
  unfold Read.val_main_v51
  show _ = out X We Wo b r p c g
  by_cases hp : p.val < 1
  · have hp0 : p = 0 := Fin.ext (by show p.val = 0; omega)
    subst hp0
    refine (concatenate_pair_apply_left (t := S16384x2x16x256) (s₁ := S16384x1x16x256) (s₂ := S16384x1x16x256) (1 : Fin 4) _ _ _ (ix4 r (0 : Fin 2) c g) rfl (ix4 r (0 : Fin 1) c g)
      (fun bb => by
        match bb with
        | ⟨0, _⟩ => rfl
        | ⟨1, _⟩ => rfl
        | ⟨2, _⟩ => rfl
        | ⟨3, _⟩ => rfl)).trans ?_
    rw [Read.val_main_v49_apply]
    have e : Read.idx_main_v49 (ix4 r (0 : Fin 1) c g) = ix3 r c g :=
      funext fun d => Fin.ext (by
        match d with
        | ⟨0, _⟩ => rfl
        | ⟨1, _⟩ => rfl
        | ⟨2, _⟩ => rfl)
    rw [e]
    exact even_half X We Wo b r c g
  · have hp1 : p = 1 := Fin.ext (by show p.val = 1; omega)
    subst hp1
    refine (concatenate_pair_apply_right (t := S16384x2x16x256) (s₁ := S16384x1x16x256) (s₂ := S16384x1x16x256) (1 : Fin 4) _ _ _ (ix4 r (1 : Fin 2) c g) rfl rfl (ix4 r (0 : Fin 1) c g)
      (fun bb hb => by
        match bb with
        | ⟨0, _⟩ => rfl
        | ⟨1, _⟩ => exact absurd (Fin.ext rfl) hb
        | ⟨2, _⟩ => rfl
        | ⟨3, _⟩ => rfl)
      (by rfl)).trans ?_
    rw [Read.val_main_v50_apply]
    have e : Read.idx_main_v50 (ix4 r (0 : Fin 1) c g) = ix3 r c g :=
      funext fun d => Fin.ext (by
        match d with
        | ⟨0, _⟩ => rfl
        | ⟨1, _⟩ => rfl
        | ⟨2, _⟩ => rfl)
    rw [e]
    exact odd_half X We Wo b r c g

end Cert.ReferenceIdeal.RefValue

end
-- ==== Proof.lean ====
/-
  The certificate: a per-degree block-diagonal linear transform of a [16384, 2, 16, 256] array, computed by a kernel that
  walks the batch in bands of 256 rows, against a reference that slices the four degree groups, multiplies each by its
  matrix and lays the results back together.

  Both compute `DegreeLinear.G`: entry `(r, p, c, g)` is the inner product of the input row `X[r, p, c, ·]` with
  column `g` of the weight matrix of the channel's degree taken from the stack of parity `p`, plus the bias `b[g]` on the
  single entry `p = 0, c = 0`.  At the extended reals the kernel's matrix product into a zero accumulator and the
  reference's contraction are the same finite sum of products, term for term, so the two sides agree without any use
  of the finiteness of the inputs; the order of the channels, the banding of the batch and the concatenations only
  re-index.  The frames of the two kernel programs are their frame runs; the reference's frame is its run with the
  result dropped; the idealization rewrote nothing, so there is nothing to preserve.
-/
import proofs.«137734_j4277787427179_2_alg».proof.Defs
import proofs.«137734_j4277787427179_2_alg».proof.Proof.Gen.Kernel
import proofs.«137734_j4277787427179_2_alg».proof.Proof.Gen.Kernel.Frame
import proofs.«137734_j4277787427179_2_alg».proof.Proof.Gen.KernelIdeal
import proofs.«137734_j4277787427179_2_alg».proof.Proof.Gen.KernelIdeal.Frame
import proofs.«137734_j4277787427179_2_alg».proof.Proof.Gen.ReferenceIdeal
import proofs.«137734_j4277787427179_2_alg».proof.Proof.Gen.ReferenceIdeal.Run
import proofs.«137734_j4277787427179_2_alg».proof.Proof.Gen.ReferenceIdeal.Read
import proofs.«137734_j4277787427179_2_alg».proof.Proof.Gen.Pre_finite_inputs
import proofs.«137734_j4277787427179_2_alg».proof.Proof.Array
import proofs.«137734_j4277787427179_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at `DegreeLinear.G` of the arguments, and the arguments agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.RefValue.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
